-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S256x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x128 .f32) (main_arg1 : FVec F S16384x16384 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128 .f32) (main_arg9 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S_ : Shape := ⟨0, ![]⟩
abbrev S4096x128 : Shape := ⟨2, ![4096, 128]⟩
abbrev S512x4096 : Shape := ⟨2, ![512, 4096]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S16384x128, .bf16⟩
  | .hbm, ⟨11, _⟩ => ⟨S_, .bf16⟩
  | .hbm, ⟨12, _⟩ => ⟨S4096x128, .bf16⟩
  | .hbm, ⟨13, _⟩ => ⟨S128x128, .f32⟩
  | .hbm, ⟨14, _⟩ => ⟨S128x128, .f32⟩
  | .hbm, ⟨15, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S16384x128, .bf16⟩
  | .local _ .vmem, ⟨3, _⟩ => ⟨S4096x128, .bf16⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c4096_i32 : BitVec 32 := 4096#32
  let v5 : BitVec 32 := Scalar.muli arg1 c4096_i32
  v5
def k0_off1 (i : grid0.Coords) : Fin 2 → Nat :=
  let arg1 : BitVec 32 := BitVec.ofNat 32 (i 1).val
  let c4096_i32 : BitVec 32 := 4096#32
  let v5 : BitVec 32 := Scalar.muli arg1 c4096_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_14 : BitVec 32 := 0#32
  let v26 : BitVec 1 := Scalar.cmpi .ne v25 c0_i32_14
  v26

def k0_mult2 (i : grid0.Coords) : BitVec 32 :=
  let arg0 : BitVec 32 := BitVec.ofNat 32 (i 0).val
  let c512_i32 : BitVec 32 := 512#32
  let v27 : BitVec 32 := Scalar.muli arg0 c512_i32
  v27
def k0_off2 (i : grid0.Coords) : Fin 2 → Nat :=
  let arg0 : BitVec 32 := BitVec.ofNat 32 (i 0).val
  let c512_i32 : BitVec 32 := 512#32
  let v27 : BitVec 32 := Scalar.muli arg0 c512_i32
  let v28 : BitVec 32 := v27
  let v29 : Index := Scalar.indexCast v28
  let c0_15 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  bitsLt_bf16_f32 : FTy.bits .bf16 < FTy.bits .f32
  bcast_S_S4096x128 : S_.BroadcastsInDim S4096x128 (![] : Fin 0 → Fin S4096x128.rank)
  slices_S256x128_S128x128_0_0 : S256x128.Slices ![0, 0] S128x128
  slices_S256x128_S128x128_128_0 : S256x128.Slices ![128, 0] S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  h_S4096x128 : 0 < S4096x128.numel
  shapeCasts_S4096x128_S4096x128 : S4096x128.ShapeCasts S4096x128
  inb_S4096x128_S4096x128_0_0 : ∀ a, (![0, 0] : Fin 2 → Nat) a + S4096x128.size a ≤ S4096x128.size a
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  shapeCasts_S128x128_S128x128 : S128x128.ShapeCasts S128x128
  reduces_S512x128_S512 : S512x128.Reduces [1] S512
  shapeCasts_S512_S512x1 : S512.ShapeCasts S512x1
  broadcasts_S512x1_S512x128 : S512x1.Broadcasts S512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x128.size a ≤ S16384x128.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x16384.size a
  hwx0_0 : ∀ i : grid0.Coords, EltTy.bits .f32 = 32 ∨ (Rect.block (s := S16384x16384) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .bf16 = 32 ∨ (Rect.block (s := S4096x128) S4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S16384x128.size a
  hwx0_12 : ∀ i : grid0.Coords, EltTy.bits .f32 = 32 ∨ (Rect.block (s := S16384x128) S512x128.size (cc0_transform_12 i) (hinb0_12 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S512x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x256 : Shape := ⟨2, ![16384, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S16384x128, .f32⟩
  | .hbm, ⟨11, _⟩ => ⟨S1x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S16384x256, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .i32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x128, .f32⟩
  | .hbm, ⟨70, _⟩ => ⟨S16384x128, .f32⟩
  | .hbm, ⟨71, _⟩ => ⟨S1x128, .f32⟩
  | .hbm, ⟨72, _⟩ => ⟨S16384x128, .f32⟩
  | .hbm, ⟨73, _⟩ => ⟨S16384x128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S_, .f32⟩
  | .hbm, ⟨78, _⟩ => ⟨S16384x128, .f32⟩
  | .hbm, ⟨79, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_cst_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_cst_1 : Ref sig .tc := ⟨.hbm, 50, rfl⟩
abbrev main_call1_v8 : Ref sig .tc := ⟨.hbm, 51, rfl⟩
abbrev main_call1_cst_2 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_cst_3 : Ref sig .tc := ⟨.hbm, 57, rfl⟩
abbrev main_call1_v13 : Ref sig .tc := ⟨.hbm, 58, rfl⟩
abbrev main_call1_cst_4 : Ref sig .tc := ⟨.hbm, 59, rfl⟩
abbrev main_call1_call0_v0 : Ref sig .tc := ⟨.hbm, 60, rfl⟩
abbrev main_call1_call0_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call2_cst : Ref sig .tc := ⟨.hbm, 77, rfl⟩
abbrev main_call2_v0 : Ref sig .tc := ⟨.hbm, 78, rfl⟩
abbrev main_v37 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  reducesTo_S16384x128_S16384_d1 : S16384x128.ReducesTo [1] S16384
  bcast_S_S16384x128 : S_.BroadcastsInDim S16384x128 (![] : Fin 0 → Fin S16384x128.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x256_S256x128_S16384x128_1_0_0_1_n_n_wf : DotDims.WF S16384x256 S256x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Pieces.lean ====
/-
  What one grid position's run of the body leaves in the two accumulators and, at the last column block, in the output
  block — each as the body's arithmetic applied to the position's input blocks and to what the accumulators held before.

  The body adds, to the first accumulator, the product of the position's 512 × 4096 adjacency block with the 4096 rows
  of the features that its column block names, and to the second the product of the same block with the constant block;
  at the first column block of a row block both accumulators are first set to zero, and at the last the normalised
  hidden row is computed from the two accumulators as they stand after that position's own addition.
-/
import proofs.«119118_j5291399708711_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The 4096 rows of the feature matrix that the position's column block names. -/
abbrev colRows (i : grid0.Coords) (x1 : Vec F S16384x128 .bf16) : Vec F S4096x128 .bf16 :=
  View.ld x1 (Rect.unit (s := S16384x128) (k0_off1 i) S4096x128.size (k0_off1_inb i))

/-- The 512 rows of the feature matrix that the position's row block names (read at the last column block only). -/
abbrev ownRows (i : grid0.Coords) (h : cond0_1 i) (x1 : Vec F S16384x128 .bf16) : Vec F S512x128 .bf16 :=
  View.ld x1 (Rect.unit (s := S16384x128) (k0_off2 i) S512x128.size (k0_off2_inb i h))

/-- At the first column block the first accumulator ends at zero plus the block product. -/
theorem sout0_A_0_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : cond0_0 i) (hc1 : ¬cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay4 x0 (colRows i x1) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]
  rfl

/-- At the first column block the second accumulator ends at zero plus the block's product with the constant block. -/
theorem sout0_A_1_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : cond0_0 i) (hc1 : ¬cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11
      = k0_pay5 x0 (k0_pay2 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun0_A
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]

/-- At a middle column block the first accumulator ends at what it held plus the block product. -/
theorem sout0_B_0_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) (xs0 : Vec F S512x128 .f32) (xs1 : Vec F S512x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay4 x0 (colRows i x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]
  rfl

/-- At a middle column block the second accumulator ends at what it held plus the block's product with the constant block. -/
theorem sout0_B_1_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) (xs0 : Vec F S512x128 .f32) (xs1 : Vec F S512x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay5 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_B
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]

/-- At the last column block the first accumulator ends at what it held plus the block product. -/
theorem sout0_C_0_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) (xs0 : Vec F S512x128 .f32) (xs1 : Vec F S512x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay4 x0 (colRows i x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]
  rfl

/-- At the last column block the second accumulator ends at what it held plus the block's product with the constant block. -/
theorem sout0_C_1_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) (xs0 : Vec F S512x128 .f32) (xs1 : Vec F S512x128 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay5 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]

/-- At the last column block the output block ends at the normalised hidden rows computed from the two accumulators as that position leaves them. -/
theorem out0_C_12_eq (c : Dev nD) (i : grid0.Coords) (arg2 : Memref sig .tc .vmem S512x4096 .f32) (harg2 : arg2.IsWhole) (arg3 : Memref sig .tc .vmem S16384x128 .bf16) (harg3 : arg3.IsWhole) (arg4 : Memref sig .tc .vmem S4096x128 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i)
    (x0 : Vec F S512x4096 .f32) (x1 : Vec F S16384x128 .bf16) (x2 : Vec F S4096x128 .bf16) (x3 : Vec F S128x128 .f32) (x4 : Vec F S128 .f32) (x5 : Vec F S128x128 .f32) (x6 : Vec F S128 .f32) (x7 : Vec F S128x128 .f32) (x8 : Vec F S128x128 .f32) (x9 : Vec F S128 .f32) (x10 : Vec F S128 .f32) (x11 : Vec F S128 .f32) (xs0 : Vec F S512x128 .f32) (xs1 : Vec F S512x128 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1
      = k0_pay6 (k0_pay7 (ownRows i hc1 x1) (k0_pay5 x0 xs1 x2) (k0_pay4 x0 (colRows i x1) xs0) x5 x6 x3 x4 x7 x8) (k0_pay8 x9) x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun0_C
  dsimp only
  sl_unfold_words
  rw [View.canon_cons_unit_zero (S := S512x128) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x4096) hz2, View.ld_unit_zero (S := S512x128) hz2, View.ld_unit_zero (S := S4096x128) hz2, View.ld_unit_zero (S := S128x128) hz2, View.ld_unit_zero (S := S128) hz1, View.readCov_unit_zero (S := S512x128) _ hz2]
  rfl

end Cert.KernelIdeal.Blocks

end
-- ==== Proof.Spec.lean ====
/-
  The layer as one function of its ten argument arrays, index by index, on the extended reals.

  For a node r and an output feature j:
    selfFeat r j  = Σ_k x[r,k]·Ws[k,j] + bs[j]
    nbrSum r k    = Σ_c adj[r,c]·x[c,k]                       (the neighbours' features, weighted by the adjacency row)
    degree r      = max(1, Σ_c adj[r,c])                      (the row's weight, clamped below at one)
    nbrMean r k   = nbrSum r k / degree r
    nbrFeat r j   = Σ_k nbrMean r k·Wn[k,j] + bn[j]
    hidden r j    = (Σ_q selfFeat r q·Wc[q,j] + Σ_q nbrFeat r q·Wc[128+q,j]) + bc[j]
                    (the product of the joined row [selfFeat r, nbrFeat r] with Wc, split at the joint)
    rowMean r     = (Σ_j hidden r j) / 128
    rowVar r      = (Σ_j (hidden r j - rowMean r)²) / 128
    out r j       = max(((hidden r j - rowMean r) · (rowVar r + ε)^(-1/2)) · γ[j] + β[j], 0)

  The three float words that occur (1, 128, ε) are kept as the patterns both programs print: the same word on both
  sides is never evaluated.
-/
import Idealize.ShloMosaic.PureOps.Ideal
import Idealize.ShloMosaic.Lib.ValueIdx

noncomputable section

namespace Cert.Layer

open Idealize.ShloMosaic Idealize.ShloMosaic.ValueIdx

/-- A matrix of extended reals, indexed as the programs' rank-2 arrays are. -/
abbrev Mat (a b : Nat) : Type := (⟨2, ![a, b]⟩ : Shape).Idx → EReal
/-- A vector of extended reals, indexed as the programs' rank-1 arrays are. -/
abbrev Row (a : Nat) : Type := (⟨1, ![a]⟩ : Shape).Idx → EReal

/-- The word for 1.0. -/
abbrev one32 : EReal := Ideal.ofBits .f32 0x3F800000#32
/-- The word for 128.0, the length of a feature row. -/
abbrev len32 : EReal := Ideal.ofBits .f32 0x43000000#32
/-- The word for the normalisation's ε. -/
abbrev eps32 : EReal := Ideal.ofBits .f32 0x3727C5AC#32

section
variable (x : Mat 16384 128) (adj : Mat 16384 16384) (Ws : Mat 128 128) (bs : Row 128)
  (Wn : Mat 128 128) (bn : Row 128) (Wc : Mat 256 128) (bc : Row 128) (γ β : Row 128)

/-- A node's own features through the self weights. -/
def selfFeat (r : Fin 16384) (j : Fin 128) : EReal :=
  (∑ k : Fin 128, x (ix2 r k) * Ws (ix2 k j)) + bs (ix1 j)

/-- The adjacency row's weighted sum of all nodes' features. -/
def nbrSum (r : Fin 16384) (k : Fin 128) : EReal :=
  ∑ c : Fin 16384, adj (ix2 r c) * x (ix2 c k)

/-- The adjacency row's total weight, clamped below at one. -/
def degree (r : Fin 16384) : EReal :=
  max one32 (∑ c : Fin 16384, adj (ix2 r c))

/-- The weighted mean of the neighbours' features. -/
def nbrMean (r : Fin 16384) (k : Fin 128) : EReal :=
  Ideal.div (nbrSum x adj r k) (degree adj r)

/-- The neighbours' mean through the neighbour weights. -/
def nbrFeat (r : Fin 16384) (j : Fin 128) : EReal :=
  (∑ k : Fin 128, nbrMean x adj r k * Wn (ix2 k j)) + bn (ix1 j)

/-- Row q of the lower half of the combining weights. -/
abbrev low (q : Fin 128) : Fin 256 := ⟨128 + q.val, by omega⟩
/-- Row q of the upper half of the combining weights. -/
abbrev upp (q : Fin 128) : Fin 256 := ⟨q.val, by omega⟩

/-- The joined row [selfFeat r, nbrFeat r] through the combining weights, the sum split at the joint. -/
def hidden (r : Fin 16384) (j : Fin 128) : EReal :=
  ((∑ q : Fin 128, selfFeat x Ws bs r q * Wc (ix2 (upp q) j))
    + (∑ q : Fin 128, nbrFeat x adj Wn bn r q * Wc (ix2 (low q) j))) + bc (ix1 j)

/-- The mean of a hidden row. -/
def rowMean (r : Fin 16384) : EReal :=
  Ideal.div (∑ j : Fin 128, hidden x adj Ws bs Wn bn Wc bc r j) len32

/-- The (biased) variance of a hidden row. -/
def rowVar (r : Fin 16384) : EReal :=
  Ideal.div (∑ j : Fin 128,
      (hidden x adj Ws bs Wn bn Wc bc r j - rowMean x adj Ws bs Wn bn Wc bc r)
        * (hidden x adj Ws bs Wn bn Wc bc r j - rowMean x adj Ws bs Wn bn Wc bc r)) len32

/-- The normalised, scaled, shifted and rectified row. -/
def outAt (r : Fin 16384) (j : Fin 128) : EReal :=
  max (((hidden x adj Ws bs Wn bn Wc bc r j - rowMean x adj Ws bs Wn bn Wc bc r)
          * Ideal.rsqrt (rowVar x adj Ws bs Wn bn Wc bc r + eps32)) * γ (ix1 j) + β (ix1 j)) 0

/-- The layer's result array. -/
def out : Mat 16384 128 := fun i => outAt x adj Ws bs Wn bn Wc bc γ β (i 0) (i 1)

theorem out_ix2 (r : Fin 16384) (j : Fin 128) :
    out x adj Ws bs Wn bn Wc bc γ β (ix2 r j) = outAt x adj Ws bs Wn bn Wc bc γ β r j := rfl

end

end Cert.Layer

end
-- ==== Proof.LibSumBlocks.lean ====
/-
  A sum over m·n consecutive indices, taken block by block.

  The indices below m·n are the numbers n·h + d with h below m and d below n, each exactly once; so a sum over them is
  the sum over the m blocks h of the sums over each block's n entries d.  For eight blocks the outer sum is written out
  as the eight block sums added left to right.  The values may lie in any additive commutative monoid.
-/
import Mathlib.Algebra.BigOperators.Fin
import Mathlib.Logic.Equiv.Fin.Basic

namespace Idealize.ShloMosaic.SumBlocks

open scoped BigOperators

/-- Entry d of block h lies below m·n. -/
theorem block_lt {m n : ℕ} (h : Fin m) (d : Fin n) : n * h.val + d.val < m * n :=
  calc n * h.val + d.val < n * h.val + n := Nat.add_lt_add_left d.isLt _
    _ = n * (h.val + 1) := (Nat.mul_succ n h.val).symm
    _ ≤ n * m := Nat.mul_le_mul_left n h.isLt
    _ = m * n := Nat.mul_comm n m

/-- A sum over the indices below m·n is the sum over the blocks of the blocks' sums. -/
theorem sum_eq_sum_blocks {M : Type*} [AddCommMonoid M] (m n : ℕ) (f : Fin (m * n) → M) :
    ∑ j, f j = ∑ h : Fin m, ∑ d : Fin n, f ⟨n * h.val + d.val, block_lt h d⟩ := by
  rw [← Equiv.sum_comp finProdFinEquiv f, Fintype.sum_prod_type]
  refine Finset.sum_congr rfl fun h _ => Finset.sum_congr rfl fun d _ => ?_
  exact congrArg f (Fin.ext (Nat.add_comm _ _))

/-- Eight blocks, added left to right. -/
theorem sum_eq_eight_blocks {M : Type*} [AddCommMonoid M] (n : ℕ) (f : Fin (8 * n) → M) :
    ∑ j, f j
      = (∑ d : Fin n, f ⟨n * (0 : Fin 8).val + d.val, block_lt 0 d⟩)
        + (∑ d : Fin n, f ⟨n * (1 : Fin 8).val + d.val, block_lt 1 d⟩)
        + (∑ d : Fin n, f ⟨n * (2 : Fin 8).val + d.val, block_lt 2 d⟩)
        + (∑ d : Fin n, f ⟨n * (3 : Fin 8).val + d.val, block_lt 3 d⟩)
        + (∑ d : Fin n, f ⟨n * (4 : Fin 8).val + d.val, block_lt 4 d⟩)
        + (∑ d : Fin n, f ⟨n * (5 : Fin 8).val + d.val, block_lt 5 d⟩)
        + (∑ d : Fin n, f ⟨n * (6 : Fin 8).val + d.val, block_lt 6 d⟩)
        + (∑ d : Fin n, f ⟨n * (7 : Fin 8).val + d.val, block_lt 7 d⟩) := by
  rw [sum_eq_sum_blocks 8 n f, Fin.sum_univ_eight]

end Idealize.ShloMosaic.SumBlocks
-- ==== Proof.Regroup.lean ====
/-
  The two regroupings that separate a blockwise evaluation of the layer from its specification.

  The 16384 columns of the adjacency matrix are cut into four blocks of 4096; a row's weighted sum of the nodes'
  features is accumulated block by block onto zero, and the row's weight is accumulated the same way as the sum of the
  entries each times one.  On the extended reals addition is commutative and associative and 0 + a = a, a · 1 = a hold
  everywhere, so both accumulations are the plain sums over all 16384 columns: nothing here needs a finite entry.

  A grid position n stands for row block n / 4 and column block n % 4.
-/
import proofs.«119118_j5291399708711_2_alg».proof.Proof.Spec
import proofs.«119118_j5291399708711_2_alg».proof.Proof.LibSumBlocks
import Idealize.ShloMosaic.PureOps.IdealRules

noncomputable section

namespace Cert.Layer

open Idealize.ShloMosaic Idealize.ShloMosaic.ValueIdx Idealize.ShloMosaic.SumBlocks

/-- Row p of row block q (blocks of 512 rows; q is read modulo 32). -/
def rowAt (q : ℕ) (p : Fin 512) : Fin 16384 :=
  ⟨512 * (q % 32) + p.val, by have := p.isLt; have := Nat.mod_lt q (show 0 < 32 by decide); omega⟩

/-- Column d of column block s (blocks of 4096 columns; s is read modulo 4). -/
def colAt (s : ℕ) (d : Fin 4096) : Fin 16384 :=
  ⟨4096 * (s % 4) + d.val, by have := d.isLt; have := Nat.mod_lt s (show 0 < 4 by decide); omega⟩

theorem colAt_block (q : ℕ) (s : Fin 4) (d : Fin 4096) :
    colAt (4 * q + s.val) d = (⟨4096 * s.val + d.val, block_lt s d⟩ : Fin 16384) :=
  Fin.ext (by show 4096 * ((4 * q + s.val) % 4) + d.val = 4096 * s.val + d.val; have := s.isLt; omega)

section
variable (x : Mat 16384 128) (adj : Mat 16384 16384)

/-- What grid position n adds to the neighbour sum of row p of its row block, at feature k: the products over its
    column block. -/
def nbrPart (n : ℕ) (p : Fin 512) (k : Fin 128) : EReal :=
  ∑ d : Fin 4096, adj (ix2 (rowAt (n / 4) p) (colAt n d)) * x (ix2 (colAt n d) k)

/-- What grid position n adds to the weight of row p of its row block: its column block's entries, each times w. -/
def degPart (w : EReal) (n : ℕ) (p : Fin 512) : EReal :=
  ∑ d : Fin 4096, adj (ix2 (rowAt (n / 4) p) (colAt n d)) * w

/-- The four column blocks' contributions, added onto zero, are the neighbour sum of the row. -/
theorem nbrSum_blocks (q : ℕ) (p : Fin 512) (k : Fin 128) :
    (0 : EReal) + ∑ s ∈ Finset.range 4, nbrPart x adj (4 * q + s) p k = nbrSum x adj (rowAt q p) k := by
  rw [zero_add, Finset.sum_range]
  unfold nbrSum
  refine ((sum_eq_sum_blocks 4 4096 (fun c : Fin 16384 => adj (ix2 (rowAt q p) c) * x (ix2 c k))).trans ?_).symm
  refine Finset.sum_congr rfl fun s _ => ?_
  unfold nbrPart
  have hq : (4 * q + s.val) / 4 = q := by have := s.isLt; omega
  rw [hq]
  refine Finset.sum_congr rfl fun d _ => ?_
  rw [colAt_block q s d]

/-- The four column blocks' entries, each times one and added onto zero, are the row's total weight. -/
theorem degree_blocks (w : EReal) (hw : w = 1) (q : ℕ) (p : Fin 512) :
    (0 : EReal) + ∑ s ∈ Finset.range 4, degPart adj w (4 * q + s) p = ∑ c : Fin 16384, adj (ix2 (rowAt q p) c) := by
  subst hw
  rw [zero_add, Finset.sum_range]
  refine ((sum_eq_sum_blocks 4 4096 (fun c : Fin 16384 => adj (ix2 (rowAt q p) c))).trans ?_).symm
  refine Finset.sum_congr rfl fun s _ => ?_
  unfold degPart
  have hq : (4 * q + s.val) / 4 = q := by have := s.isLt; omega
  rw [hq]
  refine Finset.sum_congr rfl fun d _ => ?_
  rw [colAt_block q s d, mul_one]

end

/-- The sixteen-bit word of the constant block the weights are accumulated against denotes one. -/
theorem one16 : Ideal.ofBits .bf16 0x3F80#16 = 1 := IdealRules.sign_bit.ideal_onePat .bf16

end Cert.Layer

end
-- ==== Proof.BlockReads.lean ====
/-
  What the body finds in its windows at a grid position, as entries of the ten argument arrays.

  Position t stands for row block t / 4 and column block t % 4.  The adjacency window holds rows 512·(t/4) … and columns
  4096·(t%4) … of the adjacency matrix; every other input window holds a whole array: the feature matrix (a change of
  float format of it, the identity on the extended reals), a block all of whose entries are the word for one, the two
  weight matrices and their biases, the upper and the lower half of the combining weights, its bias, and the scale and
  shift vectors.  The body itself takes two slices of the feature matrix: its rows 4096·(t%4) … and, at the last
  column block, its rows 512·(t/4) ….
-/
import proofs.«119118_j5291399708711_2_alg».proof.Proof.Gen.KernelIdeal.Frame
import proofs.«119118_j5291399708711_2_alg».proof.Proof.Pieces
import proofs.«119118_j5291399708711_2_alg».proof.Proof.Regroup
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Layer

variable (m : (ℓ : Loc nD τ sig) → Buf (Elt Ideal) ℓ)

/-- The printed index maps and grid coordinates in closed form, decided over the grid. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 1) = 0
    ∧ win0_10.index t (0 : Fin 1) = 0
    ∧ win0_11.index t (0 : Fin 1) = 0
    ∧ win0_12.index t (0 : Fin 2) = t.val / 4 ∧ win0_12.index t (1 : Fin 2) = 0
    ∧ (grid0.coords t 0).val = t.val / 4 ∧ (grid0.coords t 1).val = t.val % 4 :=
  (by decide +kernel : ∀ t : Fin grid0.N, _)

/-! ## The arrays the host operations before the call wrote -/

/-- The feature matrix in the narrower format. -/
theorem V_features (c : Dev nD) :
    (V m c main_v0 : S16384x128.Idx → EReal) = fun i => (m ((c : Thread nD τ).loc main_arg0) : S16384x128.Idx → EReal) i := by
  dsimp only [Gen.V, Gen.hostOps0]; after_results; rfl

/-- The constant block: every entry the word for one. -/
theorem V_ones (c : Dev nD) :
    (V m c main_v1 : S4096x128.Idx → EReal) = fun _ => Ideal.ofBits .bf16 0x3F80#16 := by
  dsimp only [Gen.V, Gen.hostOps0]; after_results; rfl

/-- The upper half of the combining weights. -/
theorem V_top (c : Dev nD) :
    (V m c main_v2 : S128x128.Idx → EReal)
      = fun i => (m ((c : Thread nD τ).loc main_arg6) : S256x128.Idx → EReal) (ix2 (upp (i 0)) (i 1)) := by
  dsimp only [Gen.V, Gen.hostOps0]; after_results
  funext i
  unfold extractStridedSlice
  refine congrArg _ (funext fun a => Fin.ext ?_)
  match a with
  | ⟨0, _⟩ => show 0 + (i 0).val = (i 0).val; omega
  | ⟨1, _⟩ => show 0 + (i 1).val = (i 1).val; omega

/-- The lower half of the combining weights. -/
theorem V_bottom (c : Dev nD) :
    (V m c main_v3 : S128x128.Idx → EReal)
      = fun i => (m ((c : Thread nD τ).loc main_arg6) : S256x128.Idx → EReal) (ix2 (low (i 0)) (i 1)) := by
  dsimp only [Gen.V, Gen.hostOps0]; after_results
  funext i
  unfold extractStridedSlice
  refine congrArg _ (funext fun a => Fin.ext ?_)
  match a with
  | ⟨0, _⟩ => show 128 + (i 0).val = 128 + (i 0).val; rfl
  | ⟨1, _⟩ => show 0 + (i 1).val = (i 1).val; omega

/-! ## The windows' blocks -/

/-- Window 1 holds its whole array at every position. -/
theorem blk1_whole (c : Dev nD) (t : Fin cfg0.N) :
    (iblk m c 1 t : S16384x128.Idx → EReal) = (V m c main_v0 : S16384x128.Idx → EReal) := by
  funext y
  show V m c main_v0 (((cfg0.win 1).blk t).view.emb y) = V m c main_v0 y
  refine congrArg _ (funext fun a => Fin.ext ?_)
  have hf := idx_facts t
  match a with
  | ⟨0, _⟩ => show win0_1.index t (0 : Fin 2) * 16384 + 1 * (y 0).val = (y 0).val; rw [(hf.2.2.1)]; omega
  | ⟨1, _⟩ => show win0_1.index t (1 : Fin 2) * 128 + 1 * (y 1).val = (y 1).val; rw [(hf.2.2.2.1)]; omega

/-- Window 2 holds its whole array at every position. -/
theorem blk2_whole (c : Dev nD) (t : Fin cfg0.N) :
    (iblk m c 2 t : S4096x128.Idx → EReal) = (V m c main_v1 : S4096x128.Idx → EReal) := by
  funext y
  show V m c main_v1 (((cfg0.win 2).blk t).view.emb y) = V m c main_v1 y
  refine congrArg _ (funext fun a => Fin.ext ?_)
  have hf := idx_facts t
  match a with
  | ⟨0, _⟩ => show win0_2.index t (0 : Fin 2) * 4096 + 1 * (y 0).val = (y 0).val; rw [(hf.2.2.2.2.1)]; omega
  | ⟨1, _⟩ => show win0_2.index t (1 : Fin 2) * 128 + 1 * (y 1).val = (y 1).val; rw [(hf.2.2.2.2.2.1)]; omega

/-- Window 3 holds its whole array at every position. -/
theorem blk3_whole (c : Dev nD) (t : Fin cfg0.N) :
    (iblk m c 3 t : S128x128.Idx → EReal) = (V m c main_arg2 : S128x128.Idx → EReal) := by
  funext y
  show V m c main_arg2 (((cfg0.win 3).blk t).view.emb y) = V m c main_arg2 y
  refine congrArg _ (funext fun a => Fin.ext ?_)
  have hf := idx_facts t
  match a with
  | ⟨0, _⟩ => show win0_3.index t (0 : Fin 2) * 128 + 1 * (y 0).val = (y 0).val; rw [(hf.2.2.2.2.2.2.1)]; omega
  | ⟨1, _⟩ => show win0_3.index t (1 : Fin 2) * 128 + 1 * (y 1).val = (y 1).val; rw [(hf.2.2.2.2.2.2.2.1)]; omega

/-- Window 4 holds its whole array at every position. -/
theorem blk4_whole (c : Dev nD) (t : Fin cfg0.N) :
    (iblk m c 4 t : S128.Idx → EReal) = (V m c main_arg3 : S128.Idx → EReal) := by
  funext y
  show V m c main_arg3 (((cfg0.win 4).blk t).view.emb y) = V m c main_arg3 y
  refine congrArg _ (funext fun a => Fin.ext ?_)
  have hf := idx_facts t
  match a with
  | ⟨0, _⟩ => show win0_4.index t (0 : Fin 1) * 128 + 1 * (y 0).val = (y 0).val; rw [(hf.2.2.2.2.2.2.2.2.1)]; omega

/-- Window 5 holds its whole array at every position. -/
theorem blk5_whole (c : Dev nD) (t : Fin cfg0.N) :
    (iblk m c 5 t : S128x128.Idx → EReal) = (V m c main_arg4 : S128x128.Idx → EReal) := by
  funext y
  show V m c main_arg4 (((cfg0.win 5).blk t).view.emb y) = V m c main_arg4 y
  refine congrArg _ (funext fun a => Fin.ext ?_)
  have hf := idx_facts t
  match a with
  | ⟨0, _⟩ => show win0_5.index t (0 : Fin 2) * 128 + 1 * (y 0).val = (y 0).val; rw [(hf.2.2.2.2.2.2.2.2.2.1)]; omega
  | ⟨1, _⟩ => show win0_5.index t (1 : Fin 2) * 128 + 1 * (y 1).val = (y 1).val; rw [(hf.2.2.2.2.2.2.2.2.2.2.1)]; omega

/-- Window 6 holds its whole array at every position. -/
theorem blk6_whole (c : Dev nD) (t : Fin cfg0.N) :
    (iblk m c 6 t : S128.Idx → EReal) = (V m c main_arg5 : S128.Idx → EReal) := by
  funext y
  show V m c main_arg5 (((cfg0.win 6).blk t).view.emb y) = V m c main_arg5 y
  refine congrArg _ (funext fun a => Fin.ext ?_)
  have hf := idx_facts t
  match a with
  | ⟨0, _⟩ => show win0_6.index t (0 : Fin 1) * 128 + 1 * (y 0).val = (y 0).val; rw [(hf.2.2.2.2.2.2.2.2.2.2.2.1)]; omega

/-- Window 7 holds its whole array at every position. -/
theorem blk7_whole (c : Dev nD) (t : Fin cfg0.N) :
    (iblk m c 7 t : S128x128.Idx → EReal) = (V m c main_v2 : S128x128.Idx → EReal) := by
  funext y
  show V m c main_v2 (((cfg0.win 7).blk t).view.emb y) = V m c main_v2 y
  refine congrArg _ (funext fun a => Fin.ext ?_)
  have hf := idx_facts t
  match a with
  | ⟨0, _⟩ => show win0_7.index t (0 : Fin 2) * 128 + 1 * (y 0).val = (y 0).val; rw [(hf.2.2.2.2.2.2.2.2.2.2.2.2.1)]; omega
  | ⟨1, _⟩ => show win0_7.index t (1 : Fin 2) * 128 + 1 * (y 1).val = (y 1).val; rw [(hf.2.2.2.2.2.2.2.2.2.2.2.2.2.1)]; omega

/-- Window 8 holds its whole array at every position. -/
theorem blk8_whole (c : Dev nD) (t : Fin cfg0.N) :
    (iblk m c 8 t : S128x128.Idx → EReal) = (V m c main_v3 : S128x128.Idx → EReal) := by
  funext y
  show V m c main_v3 (((cfg0.win 8).blk t).view.emb y) = V m c main_v3 y
  refine congrArg _ (funext fun a => Fin.ext ?_)
  have hf := idx_facts t
  match a with
  | ⟨0, _⟩ => show win0_8.index t (0 : Fin 2) * 128 + 1 * (y 0).val = (y 0).val; rw [(hf.2.2.2.2.2.2.2.2.2.2.2.2.2.2.1)]; omega
  | ⟨1, _⟩ => show win0_8.index t (1 : Fin 2) * 128 + 1 * (y 1).val = (y 1).val; rw [(hf.2.2.2.2.2.2.2.2.2.2.2.2.2.2.2.1)]; omega

/-- Window 9 holds its whole array at every position. -/
theorem blk9_whole (c : Dev nD) (t : Fin cfg0.N) :
    (iblk m c 9 t : S128.Idx → EReal) = (V m c main_arg7 : S128.Idx → EReal) := by
  funext y
  show V m c main_arg7 (((cfg0.win 9).blk t).view.emb y) = V m c main_arg7 y
  refine congrArg _ (funext fun a => Fin.ext ?_)
  have hf := idx_facts t
  match a with
  | ⟨0, _⟩ => show win0_9.index t (0 : Fin 1) * 128 + 1 * (y 0).val = (y 0).val; rw [(hf.2.2.2.2.2.2.2.2.2.2.2.2.2.2.2.2.1)]; omega

/-- Window 10 holds its whole array at every position. -/
theorem blk10_whole (c : Dev nD) (t : Fin cfg0.N) :
    (iblk m c 10 t : S128.Idx → EReal) = (V m c main_arg8 : S128.Idx → EReal) := by
  funext y
  show V m c main_arg8 (((cfg0.win 10).blk t).view.emb y) = V m c main_arg8 y
  refine congrArg _ (funext fun a => Fin.ext ?_)
  have hf := idx_facts t
  match a with
  | ⟨0, _⟩ => show win0_10.index t (0 : Fin 1) * 128 + 1 * (y 0).val = (y 0).val; rw [(hf.2.2.2.2.2.2.2.2.2.2.2.2.2.2.2.2.2.1)]; omega

/-- Window 11 holds its whole array at every position. -/
theorem blk11_whole (c : Dev nD) (t : Fin cfg0.N) :
    (iblk m c 11 t : S128.Idx → EReal) = (V m c main_arg9 : S128.Idx → EReal) := by
  funext y
  show V m c main_arg9 (((cfg0.win 11).blk t).view.emb y) = V m c main_arg9 y
  refine congrArg _ (funext fun a => Fin.ext ?_)
  have hf := idx_facts t
  match a with
  | ⟨0, _⟩ => show win0_11.index t (0 : Fin 1) * 128 + 1 * (y 0).val = (y 0).val; rw [(hf.2.2.2.2.2.2.2.2.2.2.2.2.2.2.2.2.2.2.1)]; omega

/-- The adjacency window at position t: rows 512·(t/4) …, columns 4096·(t%4) …. -/
theorem adjBlk_apply (c : Dev nD) (t : Fin cfg0.N) (p : Fin 512) (d : Fin 4096) :
    (iblk m c 0 t : S512x4096.Idx → EReal) (ix2 p d)
      = (m ((c : Thread nD τ).loc main_arg1) : S16384x16384.Idx → EReal) (ix2 (rowAt (t.val / 4) p) (colAt t.val d)) := by
  show V m c main_arg1 (((cfg0.win 0).blk t).view.emb (ix2 p d)) = _
  rw [V_main_arg1 m c]
  refine congrArg _ (funext fun a => Fin.ext ?_)
  have hf := idx_facts t
  have hN : t.val < 128 := lt_of_lt_of_eq t.isLt N_0
  match a with
  | ⟨0, _⟩ =>
    show win0_0.index t (0 : Fin 2) * 512 + 1 * p.val = 512 * ((t.val / 4) % 32) + p.val
    rw [(hf.1)]; omega
  | ⟨1, _⟩ =>
    show win0_0.index t (1 : Fin 2) * 4096 + 1 * d.val = 4096 * (t.val % 4) + d.val
    rw [(hf.2.1)]; omega

/-- The body's slice of the feature rows that the position's column block names. -/
theorem colRows_apply (t : Fin cfg0.N) (x1 : S16384x128.Idx → EReal) (d : Fin 4096) (k : Fin 128) :
    (colRows (F := Ideal) (grid0.coords t) x1 : S4096x128.Idx → EReal) (ix2 d k) = x1 (ix2 (colAt t.val d) k) := by
  show x1 ((Rect.unit (s := S16384x128) (k0_off1 (grid0.coords t)) S4096x128.size (k0_off1_inb (grid0.coords t))).emb (ix2 d k)) = _
  refine congrArg _ (funext fun a => Fin.ext ?_)
  have hf := idx_facts t
  match a with
  | ⟨0, _⟩ =>
    show (k0_off1 (grid0.coords t)) 0 + 1 * d.val = 4096 * (t.val % 4) + d.val
    rw [k0_off1_eq]
    show 4096 * (grid0.coords t 1).val + 1 * d.val = 4096 * (t.val % 4) + d.val
    rw [(hf.2.2.2.2.2.2.2.2.2.2.2.2.2.2.2.2.2.2.2.2.2.2)]; omega
  | ⟨1, _⟩ =>
    show (k0_off1 (grid0.coords t)) 1 + 1 * k.val = k.val
    rw [k0_off1_eq]
    show 0 + 1 * k.val = k.val
    omega

/-- The body's slice of the feature rows that the position's row block names. -/
theorem ownRows_apply (t : Fin cfg0.N) (h : cond0_1 (grid0.coords t)) (x1 : S16384x128.Idx → EReal) (p : Fin 512) (k : Fin 128) :
    (ownRows (F := Ideal) (grid0.coords t) h x1 : S512x128.Idx → EReal) (ix2 p k) = x1 (ix2 (rowAt (t.val / 4) p) k) := by
  show x1 ((Rect.unit (s := S16384x128) (k0_off2 (grid0.coords t)) S512x128.size (k0_off2_inb (grid0.coords t) h)).emb (ix2 p k)) = _
  refine congrArg _ (funext fun a => Fin.ext ?_)
  have hf := idx_facts t
  have hN : t.val < 128 := lt_of_lt_of_eq t.isLt N_0
  match a with
  | ⟨0, _⟩ =>
    show (k0_off2 (grid0.coords t)) 0 + 1 * p.val = 512 * ((t.val / 4) % 32) + p.val
    rw [k0_off2_eq]
    show 512 * (grid0.coords t 0).val + 1 * p.val = 512 * ((t.val / 4) % 32) + p.val
    rw [(hf.2.2.2.2.2.2.2.2.2.2.2.2.2.2.2.2.2.2.2.2.2.1)]; omega
  | ⟨1, _⟩ =>
    show (k0_off2 (grid0.coords t)) 1 + 1 * k.val = k.val
    rw [k0_off2_eq]
    show 0 + 1 * k.val = k.val
    omega

end Cert.KernelIdeal.Blocks

end
-- ==== Proof.DotAt.lean ====
/-
  The two block products of the body read at an entry, on the extended reals.

  Into a zero accumulator, a [512, 4096] × [4096, 128] product at (p, k) is the sum over the 4096 contraction positions
  d of left(p, d) · right(d, k), and a [512, 128] × [128, 128] product at (p, j) the sum over the 128 positions k of
  left(p, k) · right(k, j): the contraction index of each has one axis, and is re-indexed by its coordinate.
-/
import proofs.«119118_j5291399708711_2_alg».proof.Proof.Gen.KernelIdeal
import Idealize.ShloMosaic.PureOps.Ideal.Laws
import Idealize.ShloMosaic.Lib.ValueIdx

noncomputable section

open Idealize.ShloMosaic Idealize.ShloMosaic.ValueIdx

namespace Cert.KernelIdeal.Blocks

open Cert.KernelIdeal Cert.KernelIdeal.Gen

/-- The dimension numbers of the product of an adjacency block with 4096 rows of features. -/
abbrev dotBig : DotDims S512x4096 S4096x128 S512x128 := dot_S512x4096_S4096x128_S512x128_1_0_0_1_n_n
/-- The dimension numbers of the products of 512 rows with a 128 × 128 weight matrix. -/
abbrev dotSmall : DotDims S512x128 S128x128 S512x128 := dot_S512x128_S128x128_S512x128_1_0_0_1_n_n

/-- The big block product, into zero, at (p, k). -/
theorem matmul_big_apply {φ₁ φ₂ : FTy} (l : FVec Ideal S512x4096 φ₁) (r : FVec Ideal S4096x128 φ₂) (p : Fin 512) (k : Fin 128) :
    matmul dotBig none l r (constant (F := Ideal) S512x128 .f32 0x00000000#32) (ix2 p k)
      = ∑ d : Fin 4096, l (ix2 p d) * r (ix2 d k) := by
  refine (Ideal.matmul_constant_zero_apply dotBig none l r (ix2 p k)).trans ?_
  refine (Equiv.sum_comp (contrEquiv1 dotBig 4096 rfl rfl).symm _).symm.trans ?_
  refine Finset.sum_congr rfl fun d _ => ?_
  have hl : dotBig.lhsIdx (ix2 p k) ((contrEquiv1 dotBig 4096 rfl rfl).symm d) = ix2 p d := by
    funext a
    apply Fin.ext
    match a with
    | ⟨0, _⟩ => rfl
    | ⟨1, _⟩ => exact (dotBig.lhsIdx_val_of_single rfl _ _).trans (contrEquiv1_symm_val dotBig 4096 rfl rfl d)
  have hr : dotBig.rhsIdx (ix2 p k) ((contrEquiv1 dotBig 4096 rfl rfl).symm d) = ix2 d k := by
    funext a
    apply Fin.ext
    match a with
    | ⟨0, _⟩ => exact (dotBig.rhsIdx_val_of_single rfl _ _).trans (contrEquiv1_symm_val dotBig 4096 rfl rfl d)
    | ⟨1, _⟩ => rfl
  rw [hl, hr]

/-- A small product, into zero, at (p, j). -/
theorem matmul_small_apply {φ₁ φ₂ : FTy} (l : FVec Ideal S512x128 φ₁) (r : FVec Ideal S128x128 φ₂) (p : Fin 512) (j : Fin 128) :
    matmul dotSmall none l r (constant (F := Ideal) S512x128 .f32 0x00000000#32) (ix2 p j)
      = ∑ k : Fin 128, l (ix2 p k) * r (ix2 k j) := by
  refine (Ideal.matmul_constant_zero_apply dotSmall none l r (ix2 p j)).trans ?_
  refine (Equiv.sum_comp (contrEquiv1 dotSmall 128 rfl rfl).symm _).symm.trans ?_
  refine Finset.sum_congr rfl fun k _ => ?_
  have hl : dotSmall.lhsIdx (ix2 p j) ((contrEquiv1 dotSmall 128 rfl rfl).symm k) = ix2 p k := by
    funext a
    apply Fin.ext
    match a with
    | ⟨0, _⟩ => rfl
    | ⟨1, _⟩ => exact (dotSmall.lhsIdx_val_of_single rfl _ _).trans (contrEquiv1_symm_val dotSmall 128 rfl rfl k)
  have hr : dotSmall.rhsIdx (ix2 p j) ((contrEquiv1 dotSmall 128 rfl rfl).symm k) = ix2 k j := by
    funext a
    apply Fin.ext
    match a with
    | ⟨0, _⟩ => exact (dotSmall.rhsIdx_val_of_single rfl _ _).trans (contrEquiv1_symm_val dotSmall 128 rfl rfl k)
    | ⟨1, _⟩ => rfl
  rw [hl, hr]

end Cert.KernelIdeal.Blocks

end
-- ==== Proof.LibColumns.lean ====
/-
  Columns: arrays whose last axis has extent one.

  A sum or a minimum over the last axis that keeps the axis leaves an [a, 1] array; these lemmas read the three
  re-layings of such a column at an index: a vector [a] cast to the column [a, 1], the column [a, 1] cast to the row
  [1, a], and the column [a, 1] broadcast along a new last axis to [a, b].  In row-major order entry (i, 0) of [a, 1],
  entry i of [a] and entry (0, i) of [1, a] all sit at position i.
-/
import Idealize.ShloMosaic.Lib.Pipeline.Value
import Idealize.ShloMosaic.Lib.ValueIdx

namespace Idealize.ShloMosaic.Columns

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column `[a, 1]` cast to the row `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.Columns
-- ==== Proof.PayAt.lean ====
/-
  The body's arithmetic read at an entry, on the extended reals (a change of float format is the identity there).

  * an accumulator update at (p, k): what the accumulator held there plus the sum over the block's 4096 columns d of
    block(p, d) · rows(d, k);
  * the hidden row before its bias at (p, j): the sum over q of selfFeat(p, q) · top(q, j) plus the sum over q of
    nbrFeat(p, q) · bottom(q, j), where selfFeat(p, q) = Σ_k own(p, k) · Ws(k, q) + bs(q) and
    nbrFeat(p, q) = Σ_k (nsum(p, k) / max(1, deg(p, k))) · Wn(k, q) + bn(q);
  * the normalisation at (p, j): with H(q) the hidden row with its bias, μ = (Σ_q H(q)) / 128 and
    σ² = (Σ_q (H(q) - μ)²) / 128, the value max(((H(j) - μ) · (σ² + ε)^(-1/2)) · γ(j) + β(j), 0).
-/
import proofs.«119118_j5291399708711_2_alg».proof.Proof.Gen.KernelIdeal.Skeleton
import proofs.«119118_j5291399708711_2_alg».proof.Proof.DotAt
import proofs.«119118_j5291399708711_2_alg».proof.Proof.LibColumns
import proofs.«119118_j5291399708711_2_alg».proof.Proof.Spec
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.Columns

namespace Cert.KernelIdeal.Blocks

open Cert.KernelIdeal Cert.KernelIdeal.Gen Cert.Layer

/-- A vector of 128 features laid along every one of 512 rows reads, at (p, q), the vector at q. -/
theorem rowBias_apply (v : FVec Ideal S128 .f32) (h1 : S128.ShapeCasts S1x128) (h2 : S1x128.Broadcasts S512x128)
    (p : Fin 512) (q : Fin 128) :
    broadcastTo S512x128 (shapeCast S1x128 v h1) h2 (ix2 p q) = v (ix1 q) :=
  (broadcastTo_1b_ab_apply _ h2 p q).trans (shapeCast_a_1a_apply v h1 0 q)

/-- The sum of a [512, 128] block along its rows, at row p: the sum over the row's 128 entries. -/
theorem rowSum_apply (src : FVec Ideal S512x128 .f32)
    (h : S512x128.Reduces (@List.cons (Fin 2) (1 : Fin S512x128.rank) (@List.nil (Fin 2))) S512)
    (hφ : FTy.f32 = FTy.f32 ∨ FTy.f32 = FTy.bf16) (hacc : (0x00000000#32 : BitVec 32) = 0x00000000#32) (p : Fin 512) :
    multiReduction .add (@List.cons (Fin 2) (1 : Fin S512x128.rank) (@List.nil (Fin 2))) S512 src 0x00000000#32 h hφ hacc (ix1 p)
      = ∑ q : Fin 128, src (ix2 p q) :=
  (Ideal.multiReduction_add_single src 0x00000000#32 h hφ hacc (ix1 p)).trans
    (Finset.sum_congr rfl fun q _ => congrArg src (funext fun a => Fin.ext (by
      match a with
      | ⟨0, _⟩ => rfl
      | ⟨1, _⟩ => rfl)))

/-- A row sum kept as a column reads, at (p, 0), the row's sum. -/
theorem colOfRowSum_apply (v : FVec Ideal S512 .f32) (h : S512.ShapeCasts S512x1) (p : Fin 512) :
    shapeCast S512x1 v h (ix2 p (0 : Fin 1)) = v (ix1 p) :=
  shapeCast_a_a1_apply v h p 0

/-- A column laid along 128 lanes reads, at (p, j), the column at p. -/
theorem colAlong_apply (v : FVec Ideal S512x1 .f32) (h : S512x1.Broadcasts S512x128) (p : Fin 512) (j : Fin 128) :
    broadcastTo S512x128 v h (ix2 p j) = v (ix2 p (0 : Fin 1)) :=
  broadcastTo_a1_ab_apply v h p j

/-- The reciprocal square root is taken entry by entry. -/
theorem rsqrt_at {s : Shape} {φ : FTy} (a : FVec Ideal s φ) (i : s.Idx) : rsqrt a i = Ideal.rsqrt (a i) := rfl

/-- The zero block. -/
theorem pay1_apply (i : S512x128.Idx) : k0_pay1 (F := Ideal) i = 0 := by
  unfold k0_pay1
  simp only [shapeCast_self, broadcast_apply]
  exact Ideal.ofBits_zero_f32

theorem pay2_apply (i : S512x128.Idx) : k0_pay2 (F := Ideal) i = 0 := by
  unfold k0_pay2
  simp only [shapeCast_self, broadcast_apply]
  exact Ideal.ofBits_zero_f32

/-- The first accumulator's update at (p, k). -/
theorem pay4_apply (v3 : FVec Ideal S512x4096 .f32) (v8 : FVec Ideal S4096x128 .bf16) (v10 : FVec Ideal S512x128 .f32)
    (p : Fin 512) (k : Fin 128) :
    k0_pay4 (F := Ideal) v3 v8 v10 (ix2 p k) = v10 (ix2 p k) + ∑ d : Fin 4096, v3 (ix2 p d) * v8 (ix2 d k) := by
  unfold k0_pay4 k0_pay3
  simp only [shapeCast_self, addf_apply, matmul_big_apply, truncf_apply]

/-- The second accumulator's update at (p, k). -/
theorem pay5_apply (v3 : FVec Ideal S512x4096 .f32) (v16 : FVec Ideal S512x128 .f32) (v17 : FVec Ideal S4096x128 .bf16)
    (p : Fin 512) (k : Fin 128) :
    k0_pay5 (F := Ideal) v3 v16 v17 (ix2 p k) = v16 (ix2 p k) + ∑ d : Fin 4096, v3 (ix2 p d) * v17 (ix2 d k) := by
  unfold k0_pay5 k0_pay3
  simp only [shapeCast_self, addf_apply, matmul_big_apply, truncf_apply]

/-- The hidden row before its bias at (p, j). -/
theorem pay7_apply (v30 : FVec Ideal S512x128 .bf16) (v32 v35 : FVec Ideal S512x128 .f32) (v38 : FVec Ideal S128x128 .f32)
    (v41 : FVec Ideal S128 .f32) (v45 : FVec Ideal S128x128 .f32) (v48 : FVec Ideal S128 .f32)
    (v53 v58 : FVec Ideal S128x128 .f32) (p : Fin 512) (j : Fin 128) :
    k0_pay7 (F := Ideal) v30 v32 v35 v38 v41 v45 v48 v53 v58 (ix2 p j)
      = (∑ q : Fin 128, ((∑ k : Fin 128, v30 (ix2 p k) * v45 (ix2 k q)) + v48 (ix1 q)) * v53 (ix2 q j))
        + (∑ q : Fin 128, ((∑ k : Fin 128, Ideal.div (v35 (ix2 p k)) (max one32 (v32 (ix2 p k))) * v38 (ix2 k q))
              + v41 (ix1 q)) * v58 (ix2 q j)) := by
  unfold k0_pay7
  simp only [shapeCast_self, addf_apply, matmul_small_apply, truncf_apply, rowBias_apply, divf_apply, maximumf_apply,
    broadcast_apply]
  rfl

/-- The bias re-laid as one row. -/
theorem pay8_apply (v63 : FVec Ideal S128 .f32) (q : Fin 128) : k0_pay8 (F := Ideal) v63 (ix2 (0 : Fin 1) q) = v63 (ix1 q) := by
  unfold k0_pay8
  exact shapeCast_a_1a_apply v63 _ 0 q

/-- The normalisation at (p, j). -/
theorem pay6_apply (v62 : FVec Ideal S512x128 .f32) (v64 : FVec Ideal S1x128 .f32) (v85 v89 : FVec Ideal S128 .f32)
    (p : Fin 512) (j : Fin 128) :
    k0_pay6 (F := Ideal) v62 v64 v85 v89 (ix2 p j)
      = max ((((v62 (ix2 p j) + v64 (ix2 (0 : Fin 1) j))
                - Ideal.div (∑ q : Fin 128, (v62 (ix2 p q) + v64 (ix2 (0 : Fin 1) q))) len32)
              * Ideal.rsqrt (Ideal.div (∑ q : Fin 128,
                    ((v62 (ix2 p q) + v64 (ix2 (0 : Fin 1) q))
                        - Ideal.div (∑ q' : Fin 128, (v62 (ix2 p q') + v64 (ix2 (0 : Fin 1) q'))) len32)
                      * ((v62 (ix2 p q) + v64 (ix2 (0 : Fin 1) q))
                        - Ideal.div (∑ q' : Fin 128, (v62 (ix2 p q') + v64 (ix2 (0 : Fin 1) q'))) len32)) len32 + eps32))
            * v85 (ix1 j) + v89 (ix1 j)) 0 := by
  unfold k0_pay6
  simp only [maximumf_apply, addf_apply, mulf_apply, subf_apply, divf_apply, rsqrt_at, rowBias_apply, colAlong_apply,
    colOfRowSum_apply, rowSum_apply, broadcastTo_1b_ab_apply, shapeCast_a_1a_apply, broadcast_apply, Ideal.ofBits_def,
    Ideal.ofBits_zero_f32]

end Cert.KernelIdeal.Blocks

end
-- ==== Proof.Fold.lean ====
/-
  The two accumulators after each grid position.

  Position n adds to the first accumulator, at row p of its row block and feature k, the products of its column block:
  nbrPart n p k; and to the second, at the same row and any lane, its column block's entries each times the constant
  block's word: degPart n p.  The first position of a row block starts both from zero.  So after position t the first
  accumulator holds 0 + the parts of positions 4·(t/4) … t, and likewise the second.
-/
import proofs.«119118_j5291399708711_2_alg».proof.Proof.Gen.KernelIdeal.Value
import proofs.«119118_j5291399708711_2_alg».proof.Proof.BlockReads
import proofs.«119118_j5291399708711_2_alg».proof.Proof.PayAt

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Layer

variable (m : (ℓ : Loc nD τ sig) → Buf (Elt Ideal) ℓ)

/-- The feature matrix as launched. -/
abbrev featA (c : Dev nD) : Mat 16384 128 := m ((c : Thread nD τ).loc main_arg0)
/-- The adjacency matrix as launched. -/
abbrev adjA (c : Dev nD) : Mat 16384 16384 := m ((c : Thread nD τ).loc main_arg1)
/-- The word every entry of the constant block is. -/
abbrev oneW : EReal := Ideal.ofBits .bf16 0x3F80#16

/-- A position's update of the first accumulator, at an entry. -/
theorem part0 (c : Dev nD) (t : Fin cfg0.N) (v10 : S512x128.Idx → EReal) (p : Fin 512) (k : Fin 128) :
    k0_pay4 (F := Ideal) (iblk m c 0 t) (colRows (F := Ideal) (grid0.coords t) (iblk m c 1 t)) v10 (ix2 p k)
      = v10 (ix2 p k) + nbrPart (featA m c) (adjA m c) t.val p k := by
  refine (pay4_apply (iblk m c 0 t) (colRows (F := Ideal) (grid0.coords t) (iblk m c 1 t)) v10 p k).trans ?_
  refine congrArg (v10 (ix2 p k) + ·) ?_
  unfold nbrPart
  refine Finset.sum_congr rfl fun d _ => ?_
  rw [adjBlk_apply m c t p d, colRows_apply t (iblk m c 1 t) d k, blk1_whole m c t, V_features m c]

/-- A position's update of the second accumulator, at an entry. -/
theorem part1 (c : Dev nD) (t : Fin cfg0.N) (v16 : S512x128.Idx → EReal) (p : Fin 512) (k : Fin 128) :
    k0_pay5 (F := Ideal) (iblk m c 0 t) v16 (iblk m c 2 t) (ix2 p k)
      = v16 (ix2 p k) + degPart (adjA m c) oneW t.val p := by
  refine (pay5_apply (iblk m c 0 t) v16 (iblk m c 2 t) p k).trans ?_
  refine congrArg (v16 (ix2 p k) + ·) ?_
  unfold degPart
  refine Finset.sum_congr rfl fun d _ => ?_
  rw [adjBlk_apply m c t p d, blk2_whole m c t, V_ones m c]

/-- The first accumulator after the first position of a row block. -/
theorem stepA0 (c : Dev nD) (t : Fin cfg0.N) (hc0 : cond0_0 (grid0.coords t)) (hc1 : ¬cond0_1 (grid0.coords t)) (p : Fin 512) (k : Fin 128) :
    (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : S512x128.Idx → EReal) (ix2 p k)
      = 0 + nbrPart (featA m c) (adjA m c) t.val p k :=
  (congrFun (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p k)).trans ((part0 m c t _ p k).trans (by rw [pay1_apply]))

/-- The second accumulator after the first position of a row block. -/
theorem stepA1 (c : Dev nD) (t : Fin cfg0.N) (hc0 : cond0_0 (grid0.coords t)) (hc1 : ¬cond0_1 (grid0.coords t)) (p : Fin 512) (k : Fin 128) :
    (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : S512x128.Idx → EReal) (ix2 p k)
      = 0 + degPart (adjA m c) oneW t.val p :=
  (congrFun (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p k)).trans ((part1 m c t _ p k).trans (by rw [pay2_apply]))

/-- The first accumulator after a middle position. -/
theorem stepB0 (c : Dev nD) (t : Fin cfg0.N) (hc0 : ¬cond0_0 (grid0.coords t)) (hc1 : ¬cond0_1 (grid0.coords t)) (xs0 xs1 : S512x128.Idx → EReal) (p : Fin 512) (k : Fin 128) :
    (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 : S512x128.Idx → EReal) (ix2 p k)
      = xs0 (ix2 p k) + nbrPart (featA m c) (adjA m c) t.val p k :=
  (congrFun (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1) (ix2 p k)).trans (part0 m c t xs0 p k)

/-- The second accumulator after a middle position. -/
theorem stepB1 (c : Dev nD) (t : Fin cfg0.N) (hc0 : ¬cond0_0 (grid0.coords t)) (hc1 : ¬cond0_1 (grid0.coords t)) (xs0 xs1 : S512x128.Idx → EReal) (p : Fin 512) (k : Fin 128) :
    (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 : S512x128.Idx → EReal) (ix2 p k)
      = xs1 (ix2 p k) + degPart (adjA m c) oneW t.val p :=
  (congrFun (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1) (ix2 p k)).trans (part1 m c t xs1 p k)

/-- The first accumulator after the last position of a row block. -/
theorem stepC0 (c : Dev nD) (t : Fin cfg0.N) (hc0 : ¬cond0_0 (grid0.coords t)) (hc1 : cond0_1 (grid0.coords t)) (xs0 xs1 : S512x128.Idx → EReal) (p : Fin 512) (k : Fin 128) :
    (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 : S512x128.Idx → EReal) (ix2 p k)
      = xs0 (ix2 p k) + nbrPart (featA m c) (adjA m c) t.val p k :=
  (congrFun (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1) (ix2 p k)).trans (part0 m c t xs0 p k)

/-- The second accumulator after the last position of a row block. -/
theorem stepC1 (c : Dev nD) (t : Fin cfg0.N) (hc0 : ¬cond0_0 (grid0.coords t)) (hc1 : cond0_1 (grid0.coords t)) (xs0 xs1 : S512x128.Idx → EReal) (p : Fin 512) (k : Fin 128) :
    (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 : S512x128.Idx → EReal) (ix2 p k)
      = xs1 (ix2 p k) + degPart (adjA m c) oneW t.val p :=
  (congrFun (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1) (ix2 p k)).trans (part1 m c t xs1 p k)

/-- The first accumulator after position n: zero plus the parts of its row block's positions up to n. -/
theorem acc0_at (c : Dev nD) (n : ℕ) (hn : n < cfg0.N) (p : Fin 512) (k : Fin 128) :
    ((outsAt0 m c n hn).2.1 : S512x128.Idx → EReal) (ix2 p k)
      = 0 + ∑ s ∈ Finset.range (n % 4 + 1), nbrPart (featA m c) (adjA m c) (4 * (n / 4) + s) p k := by
  have hN : cfg0.N = 128 := N_0
  rw [Value.soutsAt0_0_eq m c ⟨n, hn⟩]
  refine Pipeline.accAt_add_apply (ι := S512x128.Idx) (β := EReal)
    (fun n' h => Value.scAt0_0 m c n' h (VS0_0.read (Elt Ideal) VS0_0.junk)) (Value.scAt0_0 m c)
    (fun _ => 0) (fun n' i => nbrPart (featA m c) (adjA m c) n' (i 0) (i 1)) (4 * (n / 4)) 3 ?ha ?hg (n % 4) (by omega) _ (ix2 p k)
  case ha =>
    intro h i
    obtain ⟨p, k, rfl⟩ : ∃ (p : Fin 512) (k : Fin 128), i = ix2 p k := ⟨i 0, i 1, eq_ix2 i⟩
    have h0 : (4 * (n / 4)) % 4 = 0 := by omega
    have h1 : ¬(4 * (n / 4)) % 4 = 3 := by omega
    show Value.scAt0_0 m c (4 * (n / 4)) h _ (ix2 p k) = 0 + nbrPart (featA m c) (adjA m c) (4 * (n / 4)) p k
    unfold Value.scAt0_0
    rw [dif_pos h0, dif_neg h1]
    exact stepA0 m c ⟨4 * (n / 4), h⟩ _ _ p k
  case hg =>
    intro n' h acc i hb he
    obtain ⟨p, k, rfl⟩ : ∃ (p : Fin 512) (k : Fin 128), i = ix2 p k := ⟨i 0, i 1, eq_ix2 i⟩
    have h0 : ¬n' % 4 = 0 := by omega
    show Value.scAt0_0 m c n' h acc (ix2 p k) = acc (ix2 p k) + nbrPart (featA m c) (adjA m c) n' p k
    unfold Value.scAt0_0
    rw [dif_neg h0]
    by_cases h1 : n' % 4 = 3
    · rw [dif_pos h1]
      exact stepC0 m c ⟨n', h⟩ _ _ acc _ p k
    · rw [dif_neg h1]
      exact stepB0 m c ⟨n', h⟩ _ _ acc _ p k

/-- The second accumulator after position n: zero plus the weights of its row block's column blocks up to n. -/
theorem acc1_at (c : Dev nD) (n : ℕ) (hn : n < cfg0.N) (p : Fin 512) (k : Fin 128) :
    ((outsAt0 m c n hn).2.2 : S512x128.Idx → EReal) (ix2 p k)
      = 0 + ∑ s ∈ Finset.range (n % 4 + 1), degPart (adjA m c) oneW (4 * (n / 4) + s) p := by
  have hN : cfg0.N = 128 := N_0
  rw [Value.soutsAt0_1_eq m c ⟨n, hn⟩]
  refine Pipeline.accAt_add_apply (ι := S512x128.Idx) (β := EReal)
    (fun n' h => Value.scAt0_1 m c n' h (VS0_1.read (Elt Ideal) VS0_1.junk)) (Value.scAt0_1 m c)
    (fun _ => 0) (fun n' i => degPart (adjA m c) oneW n' (i 0)) (4 * (n / 4)) 3 ?ha ?hg (n % 4) (by omega) _ (ix2 p k)
  case ha =>
    intro h i
    obtain ⟨p, k, rfl⟩ : ∃ (p : Fin 512) (k : Fin 128), i = ix2 p k := ⟨i 0, i 1, eq_ix2 i⟩
    have h0 : (4 * (n / 4)) % 4 = 0 := by omega
    have h1 : ¬(4 * (n / 4)) % 4 = 3 := by omega
    show Value.scAt0_1 m c (4 * (n / 4)) h _ (ix2 p k) = 0 + degPart (adjA m c) oneW (4 * (n / 4)) p
    unfold Value.scAt0_1
    rw [dif_pos h0, dif_neg h1]
    exact stepA1 m c ⟨4 * (n / 4), h⟩ _ _ p k
  case hg =>
    intro n' h acc i hb he
    obtain ⟨p, k, rfl⟩ : ∃ (p : Fin 512) (k : Fin 128), i = ix2 p k := ⟨i 0, i 1, eq_ix2 i⟩
    have h0 : ¬n' % 4 = 0 := by omega
    show Value.scAt0_1 m c n' h acc (ix2 p k) = acc (ix2 p k) + degPart (adjA m c) oneW n' p
    unfold Value.scAt0_1
    rw [dif_neg h0]
    by_cases h1 : n' % 4 = 3
    · rw [dif_pos h1]
      exact stepC1 m c ⟨n', h⟩ _ _ _ acc p k
    · rw [dif_neg h1]
      exact stepB1 m c ⟨n', h⟩ _ _ _ acc p k

end Cert.KernelIdeal.Blocks

end
-- ==== Proof.KernelBlocks.lean ====
/-
  The kernel's result array is the layer of its arguments.

  At the last column block of row block t / 4 the body holds, in its two accumulators, the neighbour sums and the
  weights of the block's 512 rows (the four column blocks' parts added onto zero: the plain sums over all 16384
  columns), computes from them the hidden rows and their normalisation, and the write-back puts the 512 × 128 block at
  rows 512·(t/4) … of the result.  The 32 row blocks cover the result, each written once, at its last column block.
-/
import proofs.«119118_j5291399708711_2_alg».proof.Defs
import proofs.«119118_j5291399708711_2_alg».proof.Proof.Gen.KernelIdeal.Frame
import proofs.«119118_j5291399708711_2_alg».proof.Proof.Gen.KernelIdeal.Value
import proofs.«119118_j5291399708711_2_alg».proof.Proof.Fold

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Layer

variable (m : (ℓ : Loc nD τ sig) → Buf (Elt Ideal) ℓ) (ρ : Dev nD → PrngReg)

/-- The layer of the arguments as launched on core c. -/
abbrev result (c : Dev nD) : Mat 16384 128 := Cert.Layer.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- At the last column block the first accumulator, with the position's own part added, holds the neighbour sums. -/
theorem nsum_last (c : Dev nD) (t : Fin cfg0.N) (h3 : t.val % 4 = 3) (p : Fin 512) (k : Fin 128) :
    (k0_pay4 (F := Ideal) (iblk m c 0 t) (colRows (F := Ideal) (grid0.coords t) (iblk m c 1 t)) (outsAt0 m c (t.val - 1) (Nat.lt_of_le_of_lt (Nat.sub_le _ _) t.isLt)).2.1) (ix2 p k) = nbrSum (featA m c) (adjA m c) (rowAt (t.val / 4) p) k := by
  have hN : t.val < 128 := lt_of_lt_of_eq t.isLt N_0
  rw [part0 m c t _ p k, acc0_at m c (t.val - 1) _ p k]
  obtain ⟨q, hq⟩ : ∃ q, t.val = 4 * q + 3 := ⟨t.val / 4, by omega⟩
  rw [hq, show (4 * q + 3 - 1) % 4 + 1 = 3 by omega, show 4 * ((4 * q + 3 - 1) / 4) = 4 * q by omega,
    show (4 * q + 3) / 4 = q by omega, ← nbrSum_blocks (featA m c) (adjA m c) q p k, Finset.sum_range_succ _ 3, add_assoc]

/-- … and the second, with the position's own part added, the row's total weight (in every lane). -/
theorem deg_last (c : Dev nD) (t : Fin cfg0.N) (h3 : t.val % 4 = 3) (p : Fin 512) (k : Fin 128) :
    (k0_pay5 (F := Ideal) (iblk m c 0 t) (outsAt0 m c (t.val - 1) (Nat.lt_of_le_of_lt (Nat.sub_le _ _) t.isLt)).2.2 (iblk m c 2 t)) (ix2 p k) = ∑ c' : Fin 16384, adjA m c (ix2 (rowAt (t.val / 4) p) c') := by
  have hN : t.val < 128 := lt_of_lt_of_eq t.isLt N_0
  rw [part1 m c t _ p k, acc1_at m c (t.val - 1) _ p k]
  obtain ⟨q, hq⟩ : ∃ q, t.val = 4 * q + 3 := ⟨t.val / 4, by omega⟩
  rw [hq, show (4 * q + 3 - 1) % 4 + 1 = 3 by omega, show 4 * ((4 * q + 3 - 1) / 4) = 4 * q by omega,
    show (4 * q + 3) / 4 = q by omega, ← degree_blocks (adjA m c) oneW one16 q p, Finset.sum_range_succ _ 3, add_assoc]

/-- The hidden row with its bias, as the body computes it at the last column block, is the layer's hidden row. -/
theorem hidden_last (c : Dev nD) (t : Fin cfg0.N) (h3 : t.val % 4 = 3) (hc1 : cond0_1 (grid0.coords t)) (p : Fin 512) (q : Fin 128) :
    (k0_pay7 (F := Ideal) (ownRows (F := Ideal) (grid0.coords t) hc1 (iblk m c 1 t)) (k0_pay5 (F := Ideal) (iblk m c 0 t) (outsAt0 m c (t.val - 1) (Nat.lt_of_le_of_lt (Nat.sub_le _ _) t.isLt)).2.2 (iblk m c 2 t)) (k0_pay4 (F := Ideal) (iblk m c 0 t) (colRows (F := Ideal) (grid0.coords t) (iblk m c 1 t)) (outsAt0 m c (t.val - 1) (Nat.lt_of_le_of_lt (Nat.sub_le _ _) t.isLt)).2.1) (iblk m c 5 t) (iblk m c 6 t) (iblk m c 3 t) (iblk m c 4 t) (iblk m c 7 t) (iblk m c 8 t)) (ix2 p q) + (k0_pay8 (F := Ideal) (iblk m c 9 t)) (ix2 (0 : Fin 1) q)
      = Cert.Layer.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowAt (t.val / 4) p) q := by
  refine (congrArg₂ (· + ·)
    (pay7_apply (ownRows (F := Ideal) (grid0.coords t) hc1 (iblk m c 1 t)) (k0_pay5 (F := Ideal) (iblk m c 0 t) (outsAt0 m c (t.val - 1) (Nat.lt_of_le_of_lt (Nat.sub_le _ _) t.isLt)).2.2 (iblk m c 2 t)) (k0_pay4 (F := Ideal) (iblk m c 0 t) (colRows (F := Ideal) (grid0.coords t) (iblk m c 1 t)) (outsAt0 m c (t.val - 1) (Nat.lt_of_le_of_lt (Nat.sub_le _ _) t.isLt)).2.1) (iblk m c 5 t) (iblk m c 6 t) (iblk m c 3 t) (iblk m c 4 t) (iblk m c 7 t) (iblk m c 8 t) p q)
    (pay8_apply (iblk m c 9 t) q)).trans ?_
  unfold Cert.Layer.hidden
  refine congrArg₂ (· + ·) (congrArg₂ (· + ·) (Finset.sum_congr rfl fun q' _ => ?_) (Finset.sum_congr rfl fun q' _ => ?_)) ?_
  · unfold selfFeat
    rw [blk3_whole m c t, V_main_arg2 m c, blk4_whole m c t, V_main_arg3 m c, blk7_whole m c t, V_top m c]
    refine congrArg₂ (· * ·) (congrArg₂ (· + ·) (Finset.sum_congr rfl fun k _ => ?_) rfl) rfl
    rw [ownRows_apply t hc1 (iblk m c 1 t) p k, blk1_whole m c t, V_features m c]
  · unfold nbrFeat nbrMean degree
    rw [blk5_whole m c t, V_main_arg4 m c, blk6_whole m c t, V_main_arg5 m c, blk8_whole m c t, V_bottom m c]
    refine congrArg₂ (· * ·) (congrArg₂ (· + ·) (Finset.sum_congr rfl fun k _ => ?_) rfl) rfl
    exact congrArg₂ (· * ·) (congrArg₂ Ideal.div (nsum_last m c t h3 p k) (congrArg (max one32) (deg_last m c t h3 p k))) rfl
  · rw [blk9_whole m c t, V_main_arg7 m c]

/-- WHAT A FLUSHING POSITION WRITES BACK is its block of the layer's result. -/
theorem flushed_eq (c : Dev nD) (t : Fin cfg0.N) (hf : (cfg0.win 12).flush t = true) :
    (dats m 0 c).flushed 12 t = ((cfg0.win 12).blk t).view.read (Elt Ideal) (result m c) := by
  have h3 : t.val % 4 = 3 := (flush0_12 t).mp hf
  have h0 : ¬t.val % 4 = 0 := by omega
  have hc1 : cond0_1 (grid0.coords t) := (hcond0_1 t).mpr h3
  rw [Value.flushed12_C m c t h0 h3]
  funext y
  obtain ⟨p, j, rfl⟩ : ∃ (p : Fin 512) (j : Fin 128), y = ix2 p j := ⟨y 0, y 1, eq_ix2 y⟩
  show (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) _ hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2 : S512x128.Idx → EReal) (ix2 p j)
    = result m c (((cfg0.win 12).blk t).view.emb (ix2 p j))
  have hemb : ((cfg0.win 12).blk t).view.emb (ix2 p j) = ix2 (rowAt (t.val / 4) p) j := by
    funext a
    apply Fin.ext
    have hf := idx_facts t
    have hN : t.val < 128 := lt_of_lt_of_eq t.isLt N_0
    match a with
    | ⟨0, _⟩ =>
      show win0_12.index t (0 : Fin 2) * 512 + 1 * p.val = 512 * ((t.val / 4) % 32) + p.val
      rw [(hf.2.2.2.2.2.2.2.2.2.2.2.2.2.2.2.2.2.2.2.1)]; omega
    | ⟨1, _⟩ =>
      show win0_12.index t (1 : Fin 2) * 128 + 1 * j.val = j.val
      rw [(hf.2.2.2.2.2.2.2.2.2.2.2.2.2.2.2.2.2.2.2.2.1)]; omega
  rw [hemb]
  refine (congrFun (out0_C_12_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) _ hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2) (ix2 p j)).trans ?_
  refine (pay6_apply (k0_pay7 (F := Ideal) (ownRows (F := Ideal) (grid0.coords t) hc1 (iblk m c 1 t)) (k0_pay5 (F := Ideal) (iblk m c 0 t) (outsAt0 m c (t.val - 1) (Nat.lt_of_le_of_lt (Nat.sub_le _ _) t.isLt)).2.2 (iblk m c 2 t)) (k0_pay4 (F := Ideal) (iblk m c 0 t) (colRows (F := Ideal) (grid0.coords t) (iblk m c 1 t)) (outsAt0 m c (t.val - 1) (Nat.lt_of_le_of_lt (Nat.sub_le _ _) t.isLt)).2.1) (iblk m c 5 t) (iblk m c 6 t) (iblk m c 3 t) (iblk m c 4 t) (iblk m c 7 t) (iblk m c 8 t)) (k0_pay8 (F := Ideal) (iblk m c 9 t)) (iblk m c 10 t) (iblk m c 11 t) p j).trans ?_
  simp only [hidden_last m c t h3 hc1 p]
  rw [blk10_whole m c t, V_main_arg8 m c, blk11_whole m c t, V_main_arg9 m c]
  rfl

/-- An index of the result is in position t's block iff each coordinate is in the block's range on its axis. -/
theorem mem_blk (t : Fin cfg0.N) (i : S16384x128.Idx) :
    i ∈ ((cfg0.win 12).blk t).view.set ↔ ∀ a : Fin 2, win0_12.index t a * S512x128.size a ≤ (i a).val
      ∧ (i a).val < win0_12.index t a * S512x128.size a + S512x128.size a := by
  show i ∈ ((View.whole main_v4).slice (win0_12.rect t)).set ↔ _
  rw [View.set_slice_whole, Rect.mem_set_unit]
  exact Iff.rfl

/-- Every index of the result lies in the block of its row block's last position, which writes back. -/
theorem cover (i : S16384x128.Idx) :
    ∃ t : Fin cfg0.N, (cfg0.win 12).flush t = true ∧ i ∈ ((cfg0.win 12).blk t).view.set := by
  have hi0 : (i 0).val < 16384 := (i 0).isLt
  have hi1 : (i 1).val < 128 := (i 1).isLt
  have hb : 4 * ((i 0).val / 512) + 3 < cfg0.N := by rw [show cfg0.N = 128 from N_0]; omega
  refine ⟨⟨4 * ((i 0).val / 512) + 3, hb⟩, (flush0_12 _).mpr (by show (4 * ((i 0).val / 512) + 3) % 4 = 3; omega), ?_⟩
  rw [mem_blk]
  have hf := idx_facts ⟨4 * ((i 0).val / 512) + 3, hb⟩
  intro a
  match a with
  | ⟨0, _⟩ =>
    show win0_12.index ⟨4 * ((i 0).val / 512) + 3, hb⟩ (0 : Fin 2) * 512 ≤ (i 0).val
      ∧ (i 0).val < win0_12.index ⟨4 * ((i 0).val / 512) + 3, hb⟩ (0 : Fin 2) * 512 + 512
    rw [(hf.2.2.2.2.2.2.2.2.2.2.2.2.2.2.2.2.2.2.2.1)]
    show (4 * ((i 0).val / 512) + 3) / 4 * 512 ≤ (i 0).val ∧ (i 0).val < (4 * ((i 0).val / 512) + 3) / 4 * 512 + 512
    omega
  | ⟨1, _⟩ =>
    show win0_12.index ⟨4 * ((i 0).val / 512) + 3, hb⟩ (1 : Fin 2) * 128 ≤ (i 1).val
      ∧ (i 1).val < win0_12.index ⟨4 * ((i 0).val / 512) + 3, hb⟩ (1 : Fin 2) * 128 + 128
    rw [(hf.2.2.2.2.2.2.2.2.2.2.2.2.2.2.2.2.2.2.2.2.1)]
    omega

/-- THE RESULT ARRAY after the run is the layer of the arguments. -/
theorem final (c : Dev nD) : (dats m 0 c).arrAt 12 cfg0.N = result m c :=
  (dats m 0 c).arrAt_eq_of_cover 12 (result m c) (flushed_eq m c) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.RefRun.lean ====
/-
  The reference program as a straight line of host operations, and its run.

  The program's @main is seventy host operations once its three outlined functions (the clamp of the degree, the
  variance with its select, the rectifier) are unfolded at their calls, each over its call's own buffers. The line is
  cut into four consecutive stretches — the hidden layer; its row mean; its row variance; the normalised, scaled,
  shifted and rectified result — so that what a buffer holds after the whole line can be read one stretch at a time:
  a stretch's result buffers as pure terms of the buffers it reads, every other buffer unchanged through it.
-/
import proofs.«119118_j5291399708711_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretch computing the hidden layer (the two linear maps, the neighbour mean, the joined row through the combining weights): operations 1 to 23 of the seventy. -/
abbrev opsA : List (HloOp τ sig (Elt F)) :=
  [ binary main_arg0 main_arg2 main_v0 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    binary main_arg1 main_arg0 main_v4 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    nullary main_cst (constant S_ .f32 0x00000000#32),
    binary main_arg1 main_cst main_v5 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_v5 main_v6 (broadcastInDim S16384x1 ![0] bcast_S16384_S16384x1_0 : (⟨S16384, .f32⟩ : BufTy).Contents (Elt F) → (⟨S16384x1, .f32⟩ : BufTy).Contents (Elt F)),
    nullary main_cst_0 (constant S_ .f32 0x3F800000#32),
    TRef.unary (.of main_cst_0) main_call0.v0 id,
    TRef.unary main_call0.v0 main_call0.v1 (broadcastInDim S16384x1 ![] bcast_S_S16384x1),
    TRef.binary main_call0.v1 (.of main_v6) main_call0.v2 maximumf,
    unary main_v7 main_v8 (broadcastInDim S16384x128 ![0, 1] bcast_S16384x1_S16384x128_0_1 : (⟨S16384x1, .f32⟩ : BufTy).Contents (Elt F) → (⟨S16384x128, .f32⟩ : BufTy).Contents (Elt F)),
    binary main_v4 main_v8 main_v9 (Host.divf : (⟨S16384x128, .f32⟩ : BufTy).Contents (Elt F) → (⟨S16384x128, .f32⟩ : BufTy).Contents (Elt F) → (⟨S16384x128, .f32⟩ : BufTy).Contents (Elt F)),
    binary main_v9 main_arg4 main_v10 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    binary main_v3 main_v13 main_v14 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v14 main_arg6 main_v15 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S16384x128 ![0, 1] bcast_S1x128_S16384x128_0_1 : (⟨S1x128, .f32⟩ : BufTy).Contents (Elt F) → (⟨S16384x128, .f32⟩ : BufTy).Contents (Elt F)),
    binary main_v15 main_v17 main_v18 (addf : (⟨S16384x128, .f32⟩ : BufTy).Contents (Elt F) → (⟨S16384x128, .f32⟩ : BufTy).Contents (Elt F) → (⟨S16384x128, .f32⟩ : BufTy).Contents (Elt F)) ]

/-- The stretch computing the row mean of the hidden layer, and the integer zero: operations 24 to 30 of the seventy. -/
abbrev opsB : List (HloOp τ sig (Elt F)) :=
  [ nullary main_cst_1 (constant S_ .f32 0x00000000#32),
    binary main_v18 main_cst_1 main_v19 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v19 main_v20 (broadcastInDim S16384x1 ![0] bcast_S16384_S16384x1_0 : (⟨S16384, .f32⟩ : BufTy).Contents (Elt F) → (⟨S16384x1, .f32⟩ : BufTy).Contents (Elt F)),
    nullary main_cst_2 (constant S_ .f32 0x43000000#32),
    unary main_cst_2 main_v21 (broadcastInDim S16384x1 ![] bcast_S_S16384x1 : (⟨S_, .f32⟩ : BufTy).Contents (Elt F) → (⟨S16384x1, .f32⟩ : BufTy).Contents (Elt F)),
    binary main_v20 main_v21 main_v22 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32) ]

/-- The stretch computing the row variance of the hidden layer: operations 31 to 53 of the seventy. -/
abbrev opsC : List (HloOp τ sig (Elt F)) :=
  [ TRef.nullary main_call1.cst (constant S_ .f32 0x00000000#32),
    TRef.binary (.of main_v18) main_call1.cst main_call1.v0 (fun x v => Host.reduceAdd x v reducesTo_S16384x128_S16384_d1 h_S_),
    TRef.unary main_call1.v0 main_call1.v1 (broadcastInDim S16384x1 ![0] bcast_S16384_S16384x1_0),
    TRef.nullary main_call1.cst_0 (constant S_ .f32 0x43000000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x128 ![0, 1] bcast_S16384x1_S16384x128_0_1),
    TRef.binary (.of main_v18) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x128_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b) ]

/-- The stretch computing the normalisation, scale, shift and rectification: operations 54 to 70 of the seventy. -/
abbrev opsD : List (HloOp τ sig (Elt F)) :=
  [ unary main_v22 main_v24 (broadcastInDim S16384x128 ![0, 1] bcast_S16384x1_S16384x128_0_1 : (⟨S16384x1, .f32⟩ : BufTy).Contents (Elt F) → (⟨S16384x128, .f32⟩ : BufTy).Contents (Elt F)),
    binary main_v18 main_v24 main_v25 (subf : (⟨S16384x128, .f32⟩ : BufTy).Contents (Elt F) → (⟨S16384x128, .f32⟩ : BufTy).Contents (Elt F) → (⟨S16384x128, .f32⟩ : BufTy).Contents (Elt F)),
    nullary main_cst_3 (constant S_ .f32 0x3727C5AC#32),
    unary main_cst_3 main_v26 (broadcastInDim S16384x1 ![] bcast_S_S16384x1 : (⟨S_, .f32⟩ : BufTy).Contents (Elt F) → (⟨S16384x1, .f32⟩ : BufTy).Contents (Elt F)),
    binary main_v23 main_v26 main_v27 (addf : (⟨S16384x1, .f32⟩ : BufTy).Contents (Elt F) → (⟨S16384x1, .f32⟩ : BufTy).Contents (Elt F) → (⟨S16384x1, .f32⟩ : BufTy).Contents (Elt F)),
    unary main_v27 main_v28 (Host.rsqrt : (⟨S16384x1, .f32⟩ : BufTy).Contents (Elt F) → (⟨S16384x1, .f32⟩ : BufTy).Contents (Elt F)),
    unary main_v28 main_v29 (broadcastInDim S16384x128 ![0, 1] bcast_S16384x1_S16384x128_0_1 : (⟨S16384x1, .f32⟩ : BufTy).Contents (Elt F) → (⟨S16384x128, .f32⟩ : BufTy).Contents (Elt F)),
    binary main_v25 main_v29 main_v30 (mulf : (⟨S16384x128, .f32⟩ : BufTy).Contents (Elt F) → (⟨S16384x128, .f32⟩ : BufTy).Contents (Elt F) → (⟨S16384x128, .f32⟩ : BufTy).Contents (Elt F)),
    unary main_arg8 main_v31 (broadcastInDim S1x128 ![1] bcast_S128_S1x128_1 : (⟨S128, .f32⟩ : BufTy).Contents (Elt F) → (⟨S1x128, .f32⟩ : BufTy).Contents (Elt F)),
    unary main_v31 main_v32 (broadcastInDim S16384x128 ![0, 1] bcast_S1x128_S16384x128_0_1 : (⟨S1x128, .f32⟩ : BufTy).Contents (Elt F) → (⟨S16384x128, .f32⟩ : BufTy).Contents (Elt F)),
    binary main_v30 main_v32 main_v33 (mulf : (⟨S16384x128, .f32⟩ : BufTy).Contents (Elt F) → (⟨S16384x128, .f32⟩ : BufTy).Contents (Elt F) → (⟨S16384x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S16384x128 ![0, 1] bcast_S1x128_S16384x128_0_1 : (⟨S1x128, .f32⟩ : BufTy).Contents (Elt F) → (⟨S16384x128, .f32⟩ : BufTy).Contents (Elt F)),
    binary main_v33 main_v35 main_v36 (addf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v36) main_call2.v0 main_call2.v1 maximumf ]

/-- @main's seventy operations, in order, the calls unfolded. -/
abbrev ops : List (HloOp τ sig (Elt F)) :=
  [ binary main_arg0 main_arg2 main_v0 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S16384x128 ![0, 1] bcast_S1x128_S16384x128_0_1 : (⟨S1x128, .f32⟩ : BufTy).Contents (Elt F) → (⟨S16384x128, .f32⟩ : BufTy).Contents (Elt F)),
    binary main_v0 main_v2 main_v3 (addf : (⟨S16384x128, .f32⟩ : BufTy).Contents (Elt F) → (⟨S16384x128, .f32⟩ : BufTy).Contents (Elt F) → (⟨S16384x128, .f32⟩ : BufTy).Contents (Elt F)),
    binary main_arg1 main_arg0 main_v4 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    nullary main_cst (constant S_ .f32 0x00000000#32),
    binary main_arg1 main_cst main_v5 ((fun x v => Host.reduceAdd x v reducesTo_S16384x16384_S16384_d1 h_S_) : (⟨S16384x16384, .f32⟩ : BufTy).Contents (Elt F) → (⟨S_, .f32⟩ : BufTy).Contents (Elt F) → (⟨S16384, .f32⟩ : BufTy).Contents (Elt F)),
    unary main_v5 main_v6 (broadcastInDim S16384x1 ![0] bcast_S16384_S16384x1_0 : (⟨S16384, .f32⟩ : BufTy).Contents (Elt F) → (⟨S16384x1, .f32⟩ : BufTy).Contents (Elt F)),
    nullary main_cst_0 (constant S_ .f32 0x3F800000#32),
    TRef.unary (.of main_cst_0) main_call0.v0 id,
    TRef.unary main_call0.v0 main_call0.v1 (broadcastInDim S16384x1 ![] bcast_S_S16384x1),
    TRef.binary main_call0.v1 (.of main_v6) main_call0.v2 maximumf,
    unary main_v7 main_v8 (broadcastInDim S16384x128 ![0, 1] bcast_S16384x1_S16384x128_0_1 : (⟨S16384x1, .f32⟩ : BufTy).Contents (Elt F) → (⟨S16384x128, .f32⟩ : BufTy).Contents (Elt F)),
    binary main_v4 main_v8 main_v9 (Host.divf : (⟨S16384x128, .f32⟩ : BufTy).Contents (Elt F) → (⟨S16384x128, .f32⟩ : BufTy).Contents (Elt F) → (⟨S16384x128, .f32⟩ : BufTy).Contents (Elt F)),
    binary main_v9 main_arg4 main_v10 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    binary main_v3 main_v13 main_v14 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v14 main_arg6 main_v15 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S16384x128 ![0, 1] bcast_S1x128_S16384x128_0_1 : (⟨S1x128, .f32⟩ : BufTy).Contents (Elt F) → (⟨S16384x128, .f32⟩ : BufTy).Contents (Elt F)),
    binary main_v15 main_v17 main_v18 (addf : (⟨S16384x128, .f32⟩ : BufTy).Contents (Elt F) → (⟨S16384x128, .f32⟩ : BufTy).Contents (Elt F) → (⟨S16384x128, .f32⟩ : BufTy).Contents (Elt F)),
    nullary main_cst_1 (constant S_ .f32 0x00000000#32),
    binary main_v18 main_cst_1 main_v19 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v19 main_v20 (broadcastInDim S16384x1 ![0] bcast_S16384_S16384x1_0 : (⟨S16384, .f32⟩ : BufTy).Contents (Elt F) → (⟨S16384x1, .f32⟩ : BufTy).Contents (Elt F)),
    nullary main_cst_2 (constant S_ .f32 0x43000000#32),
    unary main_cst_2 main_v21 (broadcastInDim S16384x1 ![] bcast_S_S16384x1 : (⟨S_, .f32⟩ : BufTy).Contents (Elt F) → (⟨S16384x1, .f32⟩ : BufTy).Contents (Elt F)),
    binary main_v20 main_v21 main_v22 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call1.cst (constant S_ .f32 0x00000000#32),
    TRef.binary (.of main_v18) main_call1.cst main_call1.v0 (fun x v => Host.reduceAdd x v reducesTo_S16384x128_S16384_d1 h_S_),
    TRef.unary main_call1.v0 main_call1.v1 (broadcastInDim S16384x1 ![0] bcast_S16384_S16384x1_0),
    TRef.nullary main_call1.cst_0 (constant S_ .f32 0x43000000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x128 ![0, 1] bcast_S16384x1_S16384x128_0_1),
    TRef.binary (.of main_v18) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x128_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b),
    unary main_v22 main_v24 (broadcastInDim S16384x128 ![0, 1] bcast_S16384x1_S16384x128_0_1 : (⟨S16384x1, .f32⟩ : BufTy).Contents (Elt F) → (⟨S16384x128, .f32⟩ : BufTy).Contents (Elt F)),
    binary main_v18 main_v24 main_v25 (subf : (⟨S16384x128, .f32⟩ : BufTy).Contents (Elt F) → (⟨S16384x128, .f32⟩ : BufTy).Contents (Elt F) → (⟨S16384x128, .f32⟩ : BufTy).Contents (Elt F)),
    nullary main_cst_3 (constant S_ .f32 0x3727C5AC#32),
    unary main_cst_3 main_v26 (broadcastInDim S16384x1 ![] bcast_S_S16384x1 : (⟨S_, .f32⟩ : BufTy).Contents (Elt F) → (⟨S16384x1, .f32⟩ : BufTy).Contents (Elt F)),
    binary main_v23 main_v26 main_v27 (addf : (⟨S16384x1, .f32⟩ : BufTy).Contents (Elt F) → (⟨S16384x1, .f32⟩ : BufTy).Contents (Elt F) → (⟨S16384x1, .f32⟩ : BufTy).Contents (Elt F)),
    unary main_v27 main_v28 (Host.rsqrt : (⟨S16384x1, .f32⟩ : BufTy).Contents (Elt F) → (⟨S16384x1, .f32⟩ : BufTy).Contents (Elt F)),
    unary main_v28 main_v29 (broadcastInDim S16384x128 ![0, 1] bcast_S16384x1_S16384x128_0_1 : (⟨S16384x1, .f32⟩ : BufTy).Contents (Elt F) → (⟨S16384x128, .f32⟩ : BufTy).Contents (Elt F)),
    binary main_v25 main_v29 main_v30 (mulf : (⟨S16384x128, .f32⟩ : BufTy).Contents (Elt F) → (⟨S16384x128, .f32⟩ : BufTy).Contents (Elt F) → (⟨S16384x128, .f32⟩ : BufTy).Contents (Elt F)),
    unary main_arg8 main_v31 (broadcastInDim S1x128 ![1] bcast_S128_S1x128_1 : (⟨S128, .f32⟩ : BufTy).Contents (Elt F) → (⟨S1x128, .f32⟩ : BufTy).Contents (Elt F)),
    unary main_v31 main_v32 (broadcastInDim S16384x128 ![0, 1] bcast_S1x128_S16384x128_0_1 : (⟨S1x128, .f32⟩ : BufTy).Contents (Elt F) → (⟨S16384x128, .f32⟩ : BufTy).Contents (Elt F)),
    binary main_v30 main_v32 main_v33 (mulf : (⟨S16384x128, .f32⟩ : BufTy).Contents (Elt F) → (⟨S16384x128, .f32⟩ : BufTy).Contents (Elt F) → (⟨S16384x128, .f32⟩ : BufTy).Contents (Elt F)),
    unary main_arg9 main_v34 (broadcastInDim S1x128 ![1] bcast_S128_S1x128_1 : (⟨S128, .f32⟩ : BufTy).Contents (Elt F) → (⟨S1x128, .f32⟩ : BufTy).Contents (Elt F)),
    unary main_v34 main_v35 (broadcastInDim S16384x128 ![0, 1] bcast_S1x128_S16384x128_0_1 : (⟨S1x128, .f32⟩ : BufTy).Contents (Elt F) → (⟨S16384x128, .f32⟩ : BufTy).Contents (Elt F)),
    binary main_v33 main_v35 main_v36 (addf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v36) main_call2.v0 main_call2.v1 maximumf ]

/-- The whole line is the four stretches one after the other. -/
theorem ops_eq : (ops : List (HloOp τ sig (Elt F))) = opsA ++ (opsB ++ (opsC ++ opsD)) := rfl

-- seventy binds re-associated: the rewrite under the chain recurses once per statement
set_option maxRecDepth 4096 in
set_option maxHeartbeats 4000000 in
/-- @main is that straight line: the three functions' bodies unfolded at their calls, both sides are one chain of
    steps once sequencing is re-associated. -/
theorem main_eq (c : Dev nD) : main (F := F) c = seq ops := by
  simp only [main, fn_clip.body, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., unary_bufs_sub .., nullary_bufs_sub .., unary_bufs_sub .., unary_bufs_sub .., binary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- From any memory with zero counters every weakly fair execution of @main terminates, and every TensorCore buffer
    ends at the fold of the seventy operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, stretch by stretch -/

/-- Two lines folded one after the other are their concatenation folded as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole fold is the four stretches' folds composed. -/
theorem after_ops (V : Valuation τ sig (Elt F)) :
    after ops V = after opsD (after opsC (after opsB (after opsA V))) := by
  rw [ops_eq, after_append, after_append, after_append]

/-- The buffers stretch A writes. -/
abbrev wA : List (Ref sig .tc) := [main_v0, main_v1, main_v2, main_v3, main_v4, main_cst, main_v5, main_v6, main_cst_0, main_call0_v0, main_call0_v1, main_v7, main_v8, main_v9, main_v10, main_v11, main_v12, main_v13, main_v14, main_v15, main_v16, main_v17, main_v18]

theorem opsA_writes : (opsA : List (HloOp τ sig (Elt F))).Forall fun op => op.writes ⊆ (wA.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer stretch A does not write keeps its contents through it. -/
theorem keepA (V : Valuation τ sig (Elt F)) (r : Ref sig .tc) (h : r ∉ wA) :
    after opsA V (Proc.devRef .tc r) = V (Proc.devRef .tc r) :=
  after_of_writes_sub opsA V opsA_writes h

/-- The buffers stretch B writes. -/
abbrev wB : List (Ref sig .tc) := [main_cst_1, main_v19, main_v20, main_cst_2, main_v21, main_v22, main_c]

theorem opsB_writes : (opsB : List (HloOp τ sig (Elt F))).Forall fun op => op.writes ⊆ (wB.map (Proc.devRef (τ := τ) .tc)).toFinset := by
  simp only [List.Forall]
  refine ⟨?_, ?_, ?_, ?_, ?_, ?_, ?_⟩ <;>
    (simp only [nullary_writes, unary_writes, binary_writes, ternary_writes, Finset.singleton_subset_iff, List.mem_toFinset]
     exact List.mem_map_of_mem (by decide))

/-- A buffer stretch B does not write keeps its contents through it. -/
theorem keepB (V : Valuation τ sig (Elt F)) (r : Ref sig .tc) (h : r ∉ wB) :
    after opsB V (Proc.devRef .tc r) = V (Proc.devRef .tc r) :=
  after_of_writes_sub opsB V opsB_writes h

/-- The buffers stretch C writes. -/
abbrev wC : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v23]

theorem opsC_writes : (opsC : List (HloOp τ sig (Elt F))).Forall fun op => op.writes ⊆ (wC.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer stretch C does not write keeps its contents through it. -/
theorem keepC (V : Valuation τ sig (Elt F)) (r : Ref sig .tc) (h : r ∉ wC) :
    after opsC V (Proc.devRef .tc r) = V (Proc.devRef .tc r) :=
  after_of_writes_sub opsC V opsC_writes h

/-- The buffers stretch D writes. -/
abbrev wD : List (Ref sig .tc) := [main_v24, main_v25, main_cst_3, main_v26, main_v27, main_v28, main_v29, main_v30, main_v31, main_v32, main_v33, main_v34, main_v35, main_v36, main_call2_cst, main_call2_v0, main_v37]

theorem opsD_writes : (opsD : List (HloOp τ sig (Elt F))).Forall fun op => op.writes ⊆ (wD.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

/-- A buffer stretch D does not write keeps its contents through it. -/
theorem keepD (V : Valuation τ sig (Elt F)) (r : Ref sig .tc) (h : r ∉ wD) :
    after opsD V (Proc.devRef .tc r) = V (Proc.devRef .tc r) :=
  after_of_writes_sub opsD V opsD_writes h

end Cert.ReferenceIdeal.RefRun

end
-- ==== Proof.RefStages.lean ====
/-
  The reference's intermediate arrays as pure functions of the arrays they are computed from, each the composition of the
  host operations that produce it, in the order the program applies them.

  Four of them follow the program's four stretches: the hidden layer from the eight weight and input arrays; the
  column of its row means; the column of its row variances (which recomputes the mean, divides by the count 128 − 0
  and selects on that count being positive); and the normalised, scaled, shifted and rectified result from the hidden
  layer, those two columns and the scale and shift rows.
-/
import proofs.«119118_j5291399708711_2_alg».proof.Proof.Gen.ReferenceIdeal
import Idealize.ShloMosaic.PureOps.Ideal

noncomputable section

namespace Cert.ReferenceIdeal.RefStages

open Cert.ReferenceIdeal Cert.ReferenceIdeal.Gen Idealize.ShloMosaic

/-- An f32 array of the program, at the ideal values. -/
abbrev Arr (s : Shape) : Type := FVec Ideal s .f32

/-- The scalar holding one f32 word. -/
def word (b : BitVec 32) : Arr S_ := constant (F := Ideal) S_ .f32 b

/-- A row of 128 entries laid along each of the 16384 rows. -/
def rowB (b : Arr S128) : Arr S16384x128 :=
  broadcastInDim S16384x128 ![0, 1] bcast_S1x128_S16384x128_0_1 (broadcastInDim S1x128 ![1] bcast_S128_S1x128_1 b)

/-- A column laid along each of the 128 columns. -/
def colB (v : Arr S16384x1) : Arr S16384x128 :=
  broadcastInDim S16384x128 ![0, 1] bcast_S16384x1_S16384x128_0_1 v

/-- A vector of per-row values as a column. -/
def asCol (v : Arr S16384) : Arr S16384x1 := broadcastInDim S16384x1 ![0] bcast_S16384_S16384x1_0 v

/-- A scalar at every entry of a column. -/
def splatCol (c : Arr S_) : Arr S16384x1 := broadcastInDim S16384x1 ![] bcast_S_S16384x1 c

/-- A scalar at every entry of a 16384 × 128 array. -/
def splatAll (c : Arr S_) : Arr S16384x128 := broadcastInDim S16384x128 ![] bcast_S_S16384x128 c

/-- The row sums of a 16384 × 128 array, from zero. -/
def rowSums (x : Arr S16384x128) : Arr S16384 :=
  Host.reduceAdd (F := Ideal) x (word 0x00000000#32) reducesTo_S16384x128_S16384_d1 h_S_

/-- The row sums of the adjacency, from zero. -/
def rowSumsAdj (a : Arr S16384x16384) : Arr S16384 :=
  Host.reduceAdd (F := Ideal) a (word 0x00000000#32) reducesTo_S16384x16384_S16384_d1 h_S_

/-- A linear map on 128 features: the rows through the weights, plus the bias row. -/
def lin128 (x : Arr S16384x128) (W : Arr S128x128) (b : Arr S128) : Arr S16384x128 :=
  addf (Host.dotGeneral (F := Ideal) dot_S16384x128_S128x128_S16384x128_1_0_0_1_n_n none x W) (rowB b)

/-- The column of degrees: the adjacency's row sums, clamped below at one. -/
def degCol (adj : Arr S16384x16384) : Arr S16384x1 :=
  maximumf (splatCol (id (word 0x3F800000#32))) (asCol (rowSumsAdj adj))

/-- The neighbours' weighted mean features. -/
def nbrMeanS (x : Arr S16384x128) (adj : Arr S16384x16384) : Arr S16384x128 :=
  Host.divf (F := Ideal) (Host.dotGeneral (F := Ideal) dot_S16384x16384_S16384x128_S16384x128_1_0_0_1_n_n none adj x) (colB (degCol adj))

/-- The own features and the neighbours' features, side by side. -/
def joined (x : Arr S16384x128) (adj : Arr S16384x16384) (Ws : Arr S128x128) (bs : Arr S128) (Wn : Arr S128x128) (bn : Arr S128) :
    Arr S16384x256 :=
  concatenate S16384x256 1 [⟨S16384x128, lin128 x Ws bs⟩, ⟨S16384x128, lin128 (nbrMeanS x adj) Wn bn⟩]
    concatenates_S16384x128_S16384x128_S16384x256_d1

/-- The hidden layer: the joined rows through the combining weights, plus their bias row. -/
def hiddenS (x : Arr S16384x128) (adj : Arr S16384x16384) (Ws : Arr S128x128) (bs : Arr S128) (Wn : Arr S128x128) (bn : Arr S128)
    (Wc : Arr S256x128) (bc : Arr S128) : Arr S16384x128 :=
  addf (Host.dotGeneral (F := Ideal) dot_S16384x256_S256x128_S16384x128_1_0_0_1_n_n none (joined x adj Ws bs Wn bn) Wc) (rowB bc)

/-- The column of row means: the row sums over the word for 128. -/
def meanCol (h : Arr S16384x128) : Arr S16384x1 :=
  Host.divf (F := Ideal) (asCol (rowSums h)) (splatCol (word 0x43000000#32))

/-- The variance's count: the word for 128 less the converted integer. -/
def count (cI : IVec S_ 32) : Arr S_ :=
  subf (word 0x43000000#32) (sitofp (F := Ideal) .f32 cI)

/-- The column of row variances: the row sums of the squared deviations from the row mean over the count, where the
    count is positive (and a fill word elsewhere). -/
def varCol (h : Arr S16384x128) (cI : IVec S_ 32) : Arr S16384x1 :=
  select (broadcastInDim S16384x1 ![] bcast_S_S16384x1 (cmpf .ogt (count cI) (word 0x00000000#32)))
    (Host.divf (F := Ideal)
      (asCol (rowSums (mulf (subf h (colB (meanCol h))) (subf h (colB (meanCol h))))))
      (splatCol (count cI)))
    (splatCol (id (word 0x7FC00000#32)))

/-- The result from the hidden layer, its mean and variance columns, and the scale and shift rows. -/
def outS (h : Arr S16384x128) (mean var : Arr S16384x1) (γ β : Arr S128) : Arr S16384x128 :=
  maximumf
    (addf (mulf (mulf (subf h (colB mean)) (colB (Host.rsqrt (F := Ideal) (addf var (splatCol (word 0x3727C5AC#32)))))) (rowB γ)) (rowB β))
    (splatAll (word 0x00000000#32))

/-- The integer zero the variance's count subtracts. -/
def zeroI : IVec S_ 32 := constantI S_ 32 0#32

/-- The whole layer as one function of the ten arguments. -/
def layerS (x : Arr S16384x128) (adj : Arr S16384x16384) (Ws : Arr S128x128) (bs : Arr S128) (Wn : Arr S128x128) (bn : Arr S128)
    (Wc : Arr S256x128) (bc γ β : Arr S128) : Arr S16384x128 :=
  outS (hiddenS x adj Ws bs Wn bn Wc bc) (meanCol (hiddenS x adj Ws bs Wn bn Wc bc))
    (varCol (hiddenS x adj Ws bs Wn bn Wc bc) zeroI) γ β

end Cert.ReferenceIdeal.RefStages

end
-- ==== Proof.RefSeg.lean ====
/-
  What the result buffer holds after the whole line, as one pure function of the ten arguments' contents.

  Each stretch of the line is read by itself, from ANY contents it may start from: its result buffers are the stage
  functions of the buffers it reads, and every buffer it does not write is unchanged through it. The four readings
  compose along the line: the hidden layer, then its row mean (and the integer zero), then its row variance, then the
  normalised, scaled, shifted and rectified result, each stretch's inputs traced back through the stretches that leave
  them alone. The arguments are written by no stretch, so they end as they began.
-/
import proofs.«119118_j5291399708711_2_alg».proof.Proof.RefRun
import proofs.«119118_j5291399708711_2_alg».proof.Proof.RefStages

noncomputable section

namespace Cert.ReferenceIdeal.RefSeg

open Cert.ReferenceIdeal Cert.ReferenceIdeal.Gen Cert.ReferenceIdeal.RefRun Cert.ReferenceIdeal.RefStages
open Idealize.ShloMosaic Idealize.ShloMosaic.TcCoe Idealize.SL.Sem Idealize.ShloMosaic.StableHlo

/-- The hidden layer's buffer after the first stretch. -/
theorem segA (V : Valuation τ sig (Elt Ideal)) :
    after opsA V (Proc.devRef .tc main_v18)
      = hiddenS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  rfl

/-- The row-mean column's buffer after the second stretch. -/
theorem segB_mean (V : Valuation τ sig (Elt Ideal)) :
    after opsB V (Proc.devRef .tc main_v22) = meanCol (V (Proc.devRef .tc main_v18)) := by
  after_results_simp
  rfl

/-- The integer zero's buffer after the second stretch. -/
theorem segB_zero (V : Valuation τ sig (Elt Ideal)) :
    after opsB V (Proc.devRef .tc main_c) = zeroI := by
  after_results_simp
  rfl

/-- The row-variance column's buffer after the third stretch. -/
theorem segC (V : Valuation τ sig (Elt Ideal)) :
    after opsC V (Proc.devRef .tc main_v23) = varCol (V (Proc.devRef .tc main_v18)) (V (Proc.devRef .tc main_c)) := by
  after_results_simp
  rfl

/-- The result buffer after the last stretch. -/
theorem segD (V : Valuation τ sig (Elt Ideal)) :
    after opsD V (Proc.devRef .tc main_v37)
      = outS (V (Proc.devRef .tc main_v18)) (V (Proc.devRef .tc main_v22)) (V (Proc.devRef .tc main_v23))
          (V (Proc.devRef .tc main_arg8)) (V (Proc.devRef .tc main_arg9)) := by
  after_results_simp
  rfl

/-- The result buffer after the whole line: the layer's stages composed, at the arguments' contents. -/
theorem value (V : Valuation τ sig (Elt Ideal)) :
    after ops V (Proc.devRef .tc main_v37) = layerS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops, segD,
    keepC _ main_v18 (by decide), keepC _ main_v22 (by decide), segC, keepC _ main_arg8 (by decide), keepC _ main_arg9 (by decide),
    keepB _ main_v18 (by decide), segB_mean, segB_zero, keepB _ main_arg8 (by decide), keepB _ main_arg9 (by decide),
    segA, keepA _ main_arg8 (by decide), keepA _ main_arg9 (by decide)]
  rfl

/-- A buffer no stretch writes ends as it began. -/
theorem kept (V : Valuation τ sig (Elt Ideal)) (r : Ref sig .tc) (hA : r ∉ wA) (hB : r ∉ wB) (hC : r ∉ wC) (hD : r ∉ wD) :
    after ops V (Proc.devRef .tc r) = V (Proc.devRef .tc r) := by
  rw [after_ops, keepD _ r hD, keepC _ r hC, keepB _ r hB, keepA _ r hA]

end Cert.ReferenceIdeal.RefSeg

end
-- ==== Proof.RefOpsRead.lean ====
/-
  The reference's host operations read at an index: what each layout operation, row sum and matrix product of the
  program gives at coordinates (r, j), written over the literal extents 16384, 128, 256.

  A row laid along every row reads the row's entry; a column laid along every column reads the column's entry; a
  scalar reads itself everywhere; a row sum from zero is the sum over the row's 128 (or 16384) entries; a matrix product
  is the sum over the shared axis of the products of the entries.
-/
import proofs.«119118_j5291399708711_2_alg».proof.Proof.RefStages
import Idealize.ShloMosaic.Lib.KernelVsHost
import Idealize.ShloMosaic.Lib.IdealHost

noncomputable section

open scoped BigOperators

namespace Cert.ReferenceIdeal.RefRead

open Cert.ReferenceIdeal Cert.ReferenceIdeal.Gen Cert.ReferenceIdeal.RefStages Idealize.ShloMosaic Idealize.ShloMosaic.ValueIdx

/-! ### Layout -/

theorem word_apply (b : BitVec 32) (i : S_.Idx) : word b i = Ideal.ofBits .f32 b := rfl

theorem rowB_apply (b : Arr S128) (r : Fin 16384) (j : Fin 128) : rowB b (ix2 r j) = b (ix1 j) := by
  unfold rowB
  rw [broadcastInDim_oneRow_apply]
  refine broadcastInDim_apply ![1] bcast_S128_S1x128_1 b (ix2 (0 : Fin 1) j) (ix1 j) ?_
  intro a
  match a with
  | ⟨0, _⟩ => rfl

theorem colB_apply (v : Arr S16384x1) (r : Fin 16384) (j : Fin 128) : colB v (ix2 r j) = v (ix2 r (0 : Fin 1)) := by
  unfold colB
  refine broadcastInDim_apply ![0, 1] bcast_S16384x1_S16384x128_0_1 v (ix2 r j) (ix2 r (0 : Fin 1)) ?_
  intro a
  match a with
  | ⟨0, _⟩ => rfl
  | ⟨1, _⟩ => rfl

theorem asCol_apply (v : Arr S16384) (r : Fin 16384) (z : Fin 1) : asCol v (ix2 r z) = v (ix1 r) := by
  unfold asCol
  refine broadcastInDim_apply ![0] bcast_S16384_S16384x1_0 v (ix2 r z) (ix1 r) ?_
  intro a
  match a with
  | ⟨0, _⟩ => rfl

theorem splatCol_apply (c : Arr S_) (i : S16384x1.Idx) : splatCol c i = c ix0 :=
  broadcastInDim_scalar_apply bcast_S_S16384x1 c i

theorem splatAll_apply (c : Arr S_) (i : S16384x128.Idx) : splatAll c i = c ix0 :=
  broadcastInDim_scalar_apply bcast_S_S16384x128 c i

/-! ### Row sums -/

/-- A row sum from zero of a 16384 × 128 array: the sum of the row's 128 entries. -/
theorem rowSums_apply (x : Arr S16384x128) (r : Fin 16384) : rowSums x (ix1 r) = ∑ k : Fin 128, x (ix2 r k) := by
  unfold rowSums
  rw [hostReduceAdd_apply, Ideal.hostReduceAdd_single reducesTo_S16384x128_S16384_d1 (by decide), word_apply,
    Ideal.ofBits_zero_f32, zero_add]
  refine Finset.sum_congr rfl fun k _ => ?_
  exact congrArg x (funext fun a => Fin.ext (by match a with | ⟨0, _⟩ => rfl | ⟨1, _⟩ => rfl))

/-- A row sum from zero of the adjacency: the sum of the row's 16384 entries. -/
theorem rowSumsAdj_apply (x : Arr S16384x16384) (r : Fin 16384) : rowSumsAdj x (ix1 r) = ∑ k : Fin 16384, x (ix2 r k) := by
  unfold rowSumsAdj
  rw [hostReduceAdd_apply, Ideal.hostReduceAdd_single reducesTo_S16384x16384_S16384_d1 (by decide), word_apply,
    Ideal.ofBits_zero_f32, zero_add]
  refine Finset.sum_congr rfl fun k _ => ?_
  exact congrArg x (funext fun a => Fin.ext (by match a with | ⟨0, _⟩ => rfl | ⟨1, _⟩ => rfl))

/-! ### The contraction 16384 × 128 by 128 × 128 -/

theorem dotF_lhs0 (i : S16384x128.Idx) (q : dot_S16384x128_S128x128_S16384x128_1_0_0_1_n_n.contr.Idx) : (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
theorem dotF_lhs1 (i : S16384x128.Idx) (q : dot_S16384x128_S128x128_S16384x128_1_0_0_1_n_n.contr.Idx) : (dot_S16384x128_S128x128_S16384x128_1_0_0_1_n_n.lhsIdx i q 1).val = (q ⟨0, by decide⟩).val :=
  dot_S16384x128_S128x128_S16384x128_1_0_0_1_n_n.lhsIdx_val_of_single rfl i q
theorem dotF_rhs0 (i : S16384x128.Idx) (q : dot_S16384x128_S128x128_S16384x128_1_0_0_1_n_n.contr.Idx) : (dot_S16384x128_S128x128_S16384x128_1_0_0_1_n_n.rhsIdx i q 0).val = (q ⟨0, by decide⟩).val :=
  dot_S16384x128_S128x128_S16384x128_1_0_0_1_n_n.rhsIdx_val_of_single rfl i q
theorem dotF_rhs1 (i : S16384x128.Idx) (q : dot_S16384x128_S128x128_S16384x128_1_0_0_1_n_n.contr.Idx) : (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The product of a 16384 × 128 array with a 128 × 128 one at (r, j): the sum over the shared axis of the entries' products. -/
theorem dotF_apply (x : Arr S16384x128) (y : Arr S128x128) (r : Fin 16384) (j : Fin 128) :
    Host.dotGeneral (F := Ideal) dot_S16384x128_S128x128_S16384x128_1_0_0_1_n_n none x y (ix2 r j) = ∑ k : Fin 128, x (ix2 r k) * y (ix2 k j) := by
  simp only [Host.dotGeneral]
  rw [Ideal.dotGeneral_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r j) ((contrEquiv1 dot_S16384x128_S128x128_S16384x128_1_0_0_1_n_n 128 rfl rfl).symm k) = ix2 r k :=
    funext fun a => Fin.ext (by
      match a with
      | ⟨0, _⟩ => exact dotF_lhs0 _ _
      | ⟨1, _⟩ => exact (dotF_lhs1 _ _).trans hk)
  have er : dot_S16384x128_S128x128_S16384x128_1_0_0_1_n_n.rhsIdx (ix2 r j) ((contrEquiv1 dot_S16384x128_S128x128_S16384x128_1_0_0_1_n_n 128 rfl rfl).symm k) = ix2 k j :=
    funext fun a => Fin.ext (by
      match a with
      | ⟨0, _⟩ => exact (dotF_rhs0 _ _).trans hk
      | ⟨1, _⟩ => exact dotF_rhs1 _ _)
  rw [el, er]

/-! ### The contraction 16384 × 16384 by 16384 × 128 -/

theorem dotA_lhs0 (i : S16384x128.Idx) (q : dot_S16384x16384_S16384x128_S16384x128_1_0_0_1_n_n.contr.Idx) : (dot_S16384x16384_S16384x128_S16384x128_1_0_0_1_n_n.lhsIdx i q 0).val = (i 0).val := by
  unfold DotDims.lhsIdx
  rw [dif_neg (show ¬(0 : Fin S16384x16384.rank) ∈ dot_S16384x16384_S16384x128_S16384x128_1_0_0_1_n_n.lhsBatch by decide),
    dif_pos (show (0 : Fin S16384x16384.rank) ∈ dot_S16384x16384_S16384x128_S16384x128_1_0_0_1_n_n.lhsNonContracting by decide)]
  rfl
theorem dotA_lhs1 (i : S16384x128.Idx) (q : dot_S16384x16384_S16384x128_S16384x128_1_0_0_1_n_n.contr.Idx) : (dot_S16384x16384_S16384x128_S16384x128_1_0_0_1_n_n.lhsIdx i q 1).val = (q ⟨0, by decide⟩).val :=
  dot_S16384x16384_S16384x128_S16384x128_1_0_0_1_n_n.lhsIdx_val_of_single rfl i q
theorem dotA_rhs0 (i : S16384x128.Idx) (q : dot_S16384x16384_S16384x128_S16384x128_1_0_0_1_n_n.contr.Idx) : (dot_S16384x16384_S16384x128_S16384x128_1_0_0_1_n_n.rhsIdx i q 0).val = (q ⟨0, by decide⟩).val :=
  dot_S16384x16384_S16384x128_S16384x128_1_0_0_1_n_n.rhsIdx_val_of_single rfl i q
theorem dotA_rhs1 (i : S16384x128.Idx) (q : dot_S16384x16384_S16384x128_S16384x128_1_0_0_1_n_n.contr.Idx) : (dot_S16384x16384_S16384x128_S16384x128_1_0_0_1_n_n.rhsIdx i q 1).val = (i 1).val := by
  unfold DotDims.rhsIdx
  rw [dif_neg (show ¬(1 : Fin S16384x128.rank) ∈ dot_S16384x16384_S16384x128_S16384x128_1_0_0_1_n_n.rhsBatch by decide),
    dif_pos (show (1 : Fin S16384x128.rank) ∈ dot_S16384x16384_S16384x128_S16384x128_1_0_0_1_n_n.rhsNonContracting by decide)]
  rfl

/-- The product of a 16384 × 16384 array with a 16384 × 128 one at (r, j): the sum over the shared axis of the entries' products. -/
theorem dotA_apply (x : Arr S16384x16384) (y : Arr S16384x128) (r : Fin 16384) (j : Fin 128) :
    Host.dotGeneral (F := Ideal) dot_S16384x16384_S16384x128_S16384x128_1_0_0_1_n_n none x y (ix2 r j) = ∑ k : Fin 16384, x (ix2 r k) * y (ix2 k j) := by
  simp only [Host.dotGeneral]
  rw [Ideal.dotGeneral_apply, ← Equiv.sum_comp (contrEquiv1 dot_S16384x16384_S16384x128_S16384x128_1_0_0_1_n_n 16384 rfl rfl).symm]
  refine Finset.sum_congr rfl fun k _ => ?_
  have hk := contrEquiv1_symm_val dot_S16384x16384_S16384x128_S16384x128_1_0_0_1_n_n 16384 rfl rfl k
  have el : dot_S16384x16384_S16384x128_S16384x128_1_0_0_1_n_n.lhsIdx (ix2 r j) ((contrEquiv1 dot_S16384x16384_S16384x128_S16384x128_1_0_0_1_n_n 16384 rfl rfl).symm k) = ix2 r k :=
    funext fun a => Fin.ext (by
      match a with
      | ⟨0, _⟩ => exact dotA_lhs0 _ _
      | ⟨1, _⟩ => exact (dotA_lhs1 _ _).trans hk)
  have er : dot_S16384x16384_S16384x128_S16384x128_1_0_0_1_n_n.rhsIdx (ix2 r j) ((contrEquiv1 dot_S16384x16384_S16384x128_S16384x128_1_0_0_1_n_n 16384 rfl rfl).symm k) = ix2 k j :=
    funext fun a => Fin.ext (by
      match a with
      | ⟨0, _⟩ => exact (dotA_rhs0 _ _).trans hk
      | ⟨1, _⟩ => exact dotA_rhs1 _ _)
  rw [el, er]

/-! ### The contraction 16384 × 256 by 256 × 128 -/

theorem dotC_lhs0 (i : S16384x128.Idx) (q : dot_S16384x256_S256x128_S16384x128_1_0_0_1_n_n.contr.Idx) : (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide),
    dif_pos (show (0 : Fin S16384x256.rank) ∈ dot_S16384x256_S256x128_S16384x128_1_0_0_1_n_n.lhsNonContracting by decide)]
  rfl
theorem dotC_lhs1 (i : S16384x128.Idx) (q : dot_S16384x256_S256x128_S16384x128_1_0_0_1_n_n.contr.Idx) : (dot_S16384x256_S256x128_S16384x128_1_0_0_1_n_n.lhsIdx i q 1).val = (q ⟨0, by decide⟩).val :=
  dot_S16384x256_S256x128_S16384x128_1_0_0_1_n_n.lhsIdx_val_of_single rfl i q
theorem dotC_rhs0 (i : S16384x128.Idx) (q : dot_S16384x256_S256x128_S16384x128_1_0_0_1_n_n.contr.Idx) : (dot_S16384x256_S256x128_S16384x128_1_0_0_1_n_n.rhsIdx i q 0).val = (q ⟨0, by decide⟩).val :=
  dot_S16384x256_S256x128_S16384x128_1_0_0_1_n_n.rhsIdx_val_of_single rfl i q
theorem dotC_rhs1 (i : S16384x128.Idx) (q : dot_S16384x256_S256x128_S16384x128_1_0_0_1_n_n.contr.Idx) : (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide),
    dif_pos (show (1 : Fin S256x128.rank) ∈ dot_S16384x256_S256x128_S16384x128_1_0_0_1_n_n.rhsNonContracting by decide)]
  rfl

/-- The product of a 16384 × 256 array with a 256 × 128 one at (r, j): the sum over the shared axis of the entries' products. -/
theorem dotC_apply (x : Arr S16384x256) (y : Arr S256x128) (r : Fin 16384) (j : Fin 128) :
    Host.dotGeneral (F := Ideal) dot_S16384x256_S256x128_S16384x128_1_0_0_1_n_n none x y (ix2 r j) = ∑ k : Fin 256, x (ix2 r k) * y (ix2 k j) := by
  simp only [Host.dotGeneral]
  rw [Ideal.dotGeneral_apply, ← Equiv.sum_comp (contrEquiv1 dot_S16384x256_S256x128_S16384x128_1_0_0_1_n_n 256 rfl rfl).symm]
  refine Finset.sum_congr rfl fun k _ => ?_
  have hk := contrEquiv1_symm_val dot_S16384x256_S256x128_S16384x128_1_0_0_1_n_n 256 rfl rfl k
  have el : dot_S16384x256_S256x128_S16384x128_1_0_0_1_n_n.lhsIdx (ix2 r j) ((contrEquiv1 dot_S16384x256_S256x128_S16384x128_1_0_0_1_n_n 256 rfl rfl).symm k) = ix2 r k :=
    funext fun a => Fin.ext (by
      match a with
      | ⟨0, _⟩ => exact dotC_lhs0 _ _
      | ⟨1, _⟩ => exact (dotC_lhs1 _ _).trans hk)
  have er : dot_S16384x256_S256x128_S16384x128_1_0_0_1_n_n.rhsIdx (ix2 r j) ((contrEquiv1 dot_S16384x256_S256x128_S16384x128_1_0_0_1_n_n 256 rfl rfl).symm k) = ix2 k j :=
    funext fun a => Fin.ext (by
      match a with
      | ⟨0, _⟩ => exact (dotC_rhs0 _ _).trans hk
      | ⟨1, _⟩ => exact dotC_rhs1 _ _)
  rw [el, er]

end Cert.ReferenceIdeal.RefRead

end
-- ==== Proof.RefLayerRead.lean ====
/-
  The layer's stages read at an index, and the layer as the specification.

  At a node r and a feature j each stage is the specification's formula: a linear map is the row's sum of products plus
  the bias entry; the degree is the adjacency row's sum clamped below at one; the neighbour mean is the weighted feature
  sum over the degree; the joined row reads the own features below column 128 and the neighbours' from 128 on, so its
  product with the combining weights splits into the two sums over 128 columns; the row mean and row variance are the
  sums over the row divided by the word for 128 (the variance's count 128 − 0 is that word, and it is positive, so the
  select takes the quotient); and the result is the maximum with zero of the normalised entry scaled and shifted.
-/
import proofs.«119118_j5291399708711_2_alg».proof.Proof.RefOpsRead
import proofs.«119118_j5291399708711_2_alg».proof.Proof.Spec

noncomputable section

open scoped BigOperators

namespace Cert.ReferenceIdeal.RefRead

open Cert.ReferenceIdeal Cert.ReferenceIdeal.Gen Cert.ReferenceIdeal.RefStages Idealize.ShloMosaic Idealize.ShloMosaic.ValueIdx
open Cert.Layer

section
variable (x : Arr S16384x128) (adj : Arr S16384x16384) (Ws : Arr S128x128) (bs : Arr S128)
  (Wn : Arr S128x128) (bn : Arr S128) (Wc : Arr S256x128) (bc γ β : Arr S128)

/-- A linear map at (r, j): the row's sum of products with the weights' column, plus the bias entry. -/
theorem lin128_apply (y : Arr S16384x128) (W : Arr S128x128) (b : Arr S128) (r : Fin 16384) (j : Fin 128) :
    lin128 y W b (ix2 r j) = (∑ k : Fin 128, y (ix2 r k) * W (ix2 k j)) + b (ix1 j) := by
  unfold lin128
  rw [addf_apply, dotF_apply, rowB_apply]

/-- The degree column at r: the adjacency row's sum, clamped below at the word for one. -/
theorem degCol_apply (r : Fin 16384) : degCol adj (ix2 r (0 : Fin 1)) = degree adj r := by
  unfold degCol degree
  rw [maximumf_apply, splatCol_apply, asCol_apply, rowSumsAdj_apply]
  rfl

/-- The neighbour mean at (r, k). -/
theorem nbrMeanS_apply (r : Fin 16384) (k : Fin 128) : nbrMeanS x adj (ix2 r k) = nbrMean x adj r k := by
  unfold nbrMeanS nbrMean nbrSum
  rw [hostDivf_apply, dotA_apply, colB_apply, degCol_apply]

/-- The own features at (r, j). -/
theorem self_apply (r : Fin 16384) (j : Fin 128) : lin128 x Ws bs (ix2 r j) = selfFeat x Ws bs r j := by
  rw [lin128_apply]; rfl

/-- The neighbours' features at (r, j). -/
theorem nbr_apply (r : Fin 16384) (j : Fin 128) : lin128 (nbrMeanS x adj) Wn bn (ix2 r j) = nbrFeat x adj Wn bn r j := by
  rw [lin128_apply]
  unfold nbrFeat
  simp only [nbrMeanS_apply]

/-- The joined row below column 128 is the own features. -/
theorem joined_upp (r : Fin 16384) (q : Fin 128) :
    joined x adj Ws bs Wn bn (ix2 r (upp q)) = lin128 x Ws bs (ix2 r q) := by
  unfold joined
  refine concatenate_pair_apply_left (t := S16384x256) (s₁ := S16384x128) (s₂ := S16384x128) (1 : Fin 2) (lin128 x Ws bs)
    (lin128 (nbrMeanS x adj) Wn bn) concatenates_S16384x128_S16384x128_S16384x256_d1 (ix2 r (upp q)) rfl (ix2 r q) ?_
  intro b
  match b with
  | ⟨0, _⟩ => rfl
  | ⟨1, _⟩ => rfl

/-- The joined row from column 128 on is the neighbours' features. -/
theorem joined_low (r : Fin 16384) (q : Fin 128) :
    joined x adj Ws bs Wn bn (ix2 r (low q)) = lin128 (nbrMeanS x adj) Wn bn (ix2 r q) := by
  unfold joined
  refine concatenate_pair_apply_right (t := S16384x256) (s₁ := S16384x128) (s₂ := S16384x128) (1 : Fin 2) (lin128 x Ws bs)
    (lin128 (nbrMeanS x adj) Wn bn) concatenates_S16384x128_S16384x128_S16384x256_d1 (ix2 r (low q)) rfl rfl (ix2 r q) ?_ ?_
  · intro b hb
    match b with
    | ⟨0, _⟩ => rfl
    | ⟨1, _⟩ => exact absurd rfl hb
  · show q.val + 128 = 128 + q.val
    omega

/-- A sum over 256 columns is the sum over the first 128 plus the sum over the last 128. -/
theorem sum_split (f : Fin 256 → EReal) : ∑ k : Fin 256, f k = (∑ q : Fin 128, f (upp q)) + ∑ q : Fin 128, f (low q) :=
  Fin.sum_univ_add (M := EReal) (a := 128) (b := 128) f

/-- The hidden layer at (r, j). -/
theorem hiddenS_apply (r : Fin 16384) (j : Fin 128) :
    hiddenS x adj Ws bs Wn bn Wc bc (ix2 r j) = Layer.hidden x adj Ws bs Wn bn Wc bc r j := by
  unfold hiddenS Layer.hidden
  rw [addf_apply, dotC_apply, rowB_apply, sum_split]
  simp only [joined_upp, joined_low]
  simp only [nbr_apply]
  simp only [self_apply]

end

/-! ### The normalisation -/

/-- The word 0x43000000 is the real 128. -/
theorem len32_eq : len32 = ((128 : ℝ) : EReal) := by
  simp [len32, Ideal.ofBits, Ideal.ieee, -EReal.coe_mul]; norm_num

theorem len32_pos : (0 : EReal) < len32 := by
  rw [len32_eq]; exact_mod_cast (by norm_num : (0 : ℝ) < 128)

/-- The variance's count, 128 less the converted integer zero, is the word for 128. -/
theorem count_zero : RefStages.count zeroI ix0 = len32 := by
  unfold RefStages.count zeroI
  rw [subf_apply, word_apply]
  show len32 - ((((0#32 : BitVec 32).toInt : ℝ)) : EReal) = len32
  simp

/-- The count is positive: the select's condition holds. -/
theorem cond_one : cmpf .ogt (RefStages.count zeroI) (word 0x00000000#32) ix0 = 1#1 := by
  rw [cmpf_apply, Ideal.cmpf_def, count_zero, word_apply, Ideal.ofBits_zero_f32]
  unfold Ideal.cmp
  simp [len32_pos]

/-- The row mean at r. -/
theorem meanCol_apply (h : Arr S16384x128) (r : Fin 16384) :
    meanCol h (ix2 r (0 : Fin 1)) = Ideal.div (∑ j : Fin 128, h (ix2 r j)) len32 := by
  unfold meanCol
  rw [hostDivf_apply, asCol_apply, rowSums_apply, splatCol_apply]
  rfl

/-- The row variance at r: the sum of the squared deviations from the row mean, over the word for 128. -/
theorem varCol_apply (h : Arr S16384x128) (r : Fin 16384) :
    varCol h zeroI (ix2 r (0 : Fin 1))
      = Ideal.div (∑ j : Fin 128, (h (ix2 r j) - meanCol h (ix2 r (0 : Fin 1))) * (h (ix2 r j) - meanCol h (ix2 r (0 : Fin 1)))) len32 := by
  unfold varCol
  rw [select_apply, broadcastInDim_scalar_apply, cond_one, select_one, hostDivf_apply, asCol_apply, rowSums_apply,
    splatCol_apply, count_zero]
  refine congrArg (Ideal.div · len32) (Finset.sum_congr rfl fun j _ => ?_)
  rw [mulf_apply, subf_apply, colB_apply]

/-- The result at (r, j) from the hidden layer and its mean and variance columns. -/
theorem outS_apply (h : Arr S16384x128) (mean var : Arr S16384x1) (γ β : Arr S128) (r : Fin 16384) (j : Fin 128) :
    outS h mean var γ β (ix2 r j)
      = max (((h (ix2 r j) - mean (ix2 r (0 : Fin 1))) * Ideal.rsqrt (var (ix2 r (0 : Fin 1)) + eps32)) * γ (ix1 j) + β (ix1 j)) 0 := by
  unfold outS
  rw [maximumf_apply, addf_apply, mulf_apply, mulf_apply, subf_apply, colB_apply, colB_apply, rowB_apply, rowB_apply,
    splatAll_apply, word_apply, Ideal.ofBits_zero_f32]
  rfl

/-- The stages composed are the specification's layer. -/
theorem layerS_eq (x : Arr S16384x128) (adj : Arr S16384x16384) (Ws : Arr S128x128) (bs : Arr S128)
    (Wn : Arr S128x128) (bn : Arr S128) (Wc : Arr S256x128) (bc γ β : Arr S128) :
    layerS x adj Ws bs Wn bn Wc bc γ β = Cert.Layer.out x adj Ws bs Wn bn Wc bc γ β := by
  funext i
  obtain ⟨r, j, rfl⟩ : ∃ (r : Fin 16384) (j : Fin 128), i = ix2 r j := ⟨i 0, i 1, eq_ix2 i⟩
  rw [out_ix2]
  unfold layerS outAt rowVar rowMean
  rw [outS_apply, varCol_apply, meanCol_apply]
  simp only [hiddenS_apply]

end Cert.ReferenceIdeal.RefRead

end
-- ==== Proof.RefValue.lean ====
/-
  The reference's run: every weakly fair execution terminates with the result buffer at the specification's layer of
  the ten argument arrays as the launch found them, and with the ten arguments unchanged.

  The run of the straight line leaves every buffer at the fold of the seventy operations over the launch contents; at
  the result buffer that fold is the layer's stages composed, which index by index is the specification; at an argument
  buffer, which no operation writes, it is what the launch found there.
-/
import proofs.«119118_j5291399708711_2_alg».proof.Proof.RefSeg
import proofs.«119118_j5291399708711_2_alg».proof.Proof.RefLayerRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- From any memory with zero counters every weakly fair execution of the reference terminates with its result at the
    specification's layer of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
        = Cert.Layer.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v37).trans ((RefSeg.value _).trans (RefRead.layerS_eq _ _ _ _ _ _ _ _ _ _)),
      (h c main_arg0).trans (RefSeg.kept _ main_arg0 (by decide) (by decide) (by decide) (by decide)),
      (h c main_arg1).trans (RefSeg.kept _ main_arg1 (by decide) (by decide) (by decide) (by decide)),
      (h c main_arg2).trans (RefSeg.kept _ main_arg2 (by decide) (by decide) (by decide) (by decide)),
      (h c main_arg3).trans (RefSeg.kept _ main_arg3 (by decide) (by decide) (by decide) (by decide)),
      (h c main_arg4).trans (RefSeg.kept _ main_arg4 (by decide) (by decide) (by decide) (by decide)),
      (h c main_arg5).trans (RefSeg.kept _ main_arg5 (by decide) (by decide) (by decide) (by decide)),
      (h c main_arg6).trans (RefSeg.kept _ main_arg6 (by decide) (by decide) (by decide) (by decide)),
      (h c main_arg7).trans (RefSeg.kept _ main_arg7 (by decide) (by decide) (by decide) (by decide)),
      (h c main_arg8).trans (RefSeg.kept _ main_arg8 (by decide) (by decide) (by decide) (by decide)),
      (h c main_arg9).trans (RefSeg.kept _ main_arg9 (by decide) (by decide) (by decide) (by decide))⟩)
    (RefRun.run_main m ρ)

end Cert.ReferenceIdeal.RefValue

end
-- ==== Proof.lean ====
/-
  The kernel and the reference compute one function of their ten arguments.

  The layer: for a node r of 16384 and an output feature j of 128, from the node features x [16384, 128], the dense
  adjacency weights adj [16384, 16384], the self and neighbour weights and biases, the combining weights [256, 128] and
  bias, and a scale γ and shift β,
      hidden r j = Σ_q (x_r · Ws + bs)_q · Wc[q, j] + Σ_q ((adj_r · x / max(1, Σ_c adj[r, c])) · Wn + bn)_q · Wc[128 + q, j] + bc[j],
      out r j    = max(((hidden r j - μ_r) · (σ²_r + ε)^(-1/2)) · γ[j] + β[j], 0),
  with μ_r and σ²_r the mean and the biased variance of the hidden row r.

  The reference computes it with whole-matrix products and one concatenation.  The kernel walks a 32 × 4 grid of
  512 × 4096 adjacency blocks: along a row block it accumulates, onto zero, the block products adj_blk · x_rows and
  adj_blk · 1 (the latter gives every lane the row's total weight), and at the fourth column block it finishes the rows:
  division by the clamped weight, the two linear maps, the combination split at the joint of the concatenation, the
  normalisation, the rectification.  On the extended reals a change of float format is the identity and addition is
  commutative and associative with 0 + a = a and a · 1 = a everywhere, so the four block sums are the sum over all
  16384 columns and the split combination is the product with the joined row: the two programs end at the same array,
  whatever the entries — no entry needs to be finite, and the precondition is not used.

  Both runs are read against one specification of the layer, `Cert.Layer.out`, index by index.  Nothing was rewritten
  between the kernel and its idealization, which is the kernel's own text read at the extended reals.
-/
import proofs.«119118_j5291399708711_2_alg».proof.Defs
import proofs.«119118_j5291399708711_2_alg».proof.Proof.Gen.Kernel
import proofs.«119118_j5291399708711_2_alg».proof.Proof.Gen.Kernel.Skeleton
import proofs.«119118_j5291399708711_2_alg».proof.Proof.Gen.Kernel.Launch
import proofs.«119118_j5291399708711_2_alg».proof.Proof.Gen.Kernel.Points
import proofs.«119118_j5291399708711_2_alg».proof.Proof.Gen.Kernel.Frame
import proofs.«119118_j5291399708711_2_alg».proof.Proof.Gen.KernelIdeal
import proofs.«119118_j5291399708711_2_alg».proof.Proof.Gen.KernelIdeal.Skeleton
import proofs.«119118_j5291399708711_2_alg».proof.Proof.Gen.KernelIdeal.Launch
import proofs.«119118_j5291399708711_2_alg».proof.Proof.Gen.KernelIdeal.Points
import proofs.«119118_j5291399708711_2_alg».proof.Proof.Gen.KernelIdeal.Frame
import proofs.«119118_j5291399708711_2_alg».proof.Proof.Gen.ReferenceIdeal
import proofs.«119118_j5291399708711_2_alg».proof.Proof.Gen.Pre_finite_inputs
import proofs.«119118_j5291399708711_2_alg».proof.Proof.KernelBlocks
import proofs.«119118_j5291399708711_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefValue.run m ρ)

/-- Nothing was rewritten between the kernel and its idealization. -/
theorem preserves : Cert.preserves_Kernel_KernelIdeal := trivial

/-- From memories that agree on the arguments both runs end with the result array at the layer of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
